-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x64 : Shape := ⟨2, ![1048576, 64]⟩
abbrev S64x100 : Shape := ⟨2, ![64, 100]⟩
abbrev S100 : Shape := ⟨1, ![100]⟩
abbrev S5x100x100 : Shape := ⟨3, ![5, 100, 100]⟩
abbrev S5x100 : Shape := ⟨2, ![5, 100]⟩
abbrev S100x1 : Shape := ⟨2, ![100, 1]⟩
abbrev S1 : Shape := ⟨1, ![1]⟩
abbrev S_ : Shape := ⟨0, ![]⟩

class Facts : Prop where
  bcast_S_S1048576x64 : S_.BroadcastsInDim S1048576x64 (![] : Fin 0 → Fin S1048576x64.rank)
  reducesTo_S1048576x64_S_d0_1 : S1048576x64.ReducesTo [0, 1] S_
  h_S_ : 0 < S_.numel
  bcast_S_S64x100 : S_.BroadcastsInDim S64x100 (![] : Fin 0 → Fin S64x100.rank)
  reducesTo_S64x100_S_d0_1 : S64x100.ReducesTo [0, 1] S_
  bcast_S_S100 : S_.BroadcastsInDim S100 (![] : Fin 0 → Fin S100.rank)
  reducesTo_S100_S_d0 : S100.ReducesTo [0] S_
  bcast_S_S5x100x100 : S_.BroadcastsInDim S5x100x100 (![] : Fin 0 → Fin S5x100x100.rank)
  reducesTo_S5x100x100_S_d0_1_2 : S5x100x100.ReducesTo [0, 1, 2] S_
  bcast_S_S5x100 : S_.BroadcastsInDim S5x100 (![] : Fin 0 → Fin S5x100.rank)
  reducesTo_S5x100_S_d0_1 : S5x100.ReducesTo [0, 1] S_
  bcast_S_S100x1 : S_.BroadcastsInDim S100x1 (![] : Fin 0 → Fin S100x1.rank)
  reducesTo_S100x1_S_d0_1 : S100x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S5x100 .f32) (main_arg5 : FVec F S100x1 .f32) (main_arg6 : FVec F S1 .f32) (main_v13 : IVec S_ 1) (main_v16 : IVec S5x100x100 1) : IVec S_ 1 :=
  let main_c_5 : IVec S_ 1 := constantI S_ 1 1#1
  let main_v17 : IVec S_ 1 := (fun x v => Host.reduce IntOp.andi x v reducesTo_S5x100x100_S_d0_1_2 h_S_) main_v16 main_c_5
  let main_v18 : IVec S_ 1 := andi main_v13 main_v17
  let main_v19 : FVec F S5x100 .f32 := Host.absf main_arg4
  let main_cst_6 : FVec F S_ .f32 := constant S_ .f32 0x7F800000#32
  let main_v20 : FVec F S5x100 .f32 := broadcastInDim S5x100 ![] bcast_S_S5x100 main_cst_6
  let main_v21 : IVec S5x100 1 := cmpf .olt main_v19 main_v20
  let main_c_7 : IVec S_ 1 := constantI S_ 1 1#1
  let main_v22 : IVec S_ 1 := (fun x v => Host.reduce IntOp.andi x v reducesTo_S5x100_S_d0_1 h_S_) main_v21 main_c_7
  let main_v23 : IVec S_ 1 := andi main_v18 main_v22
  let main_v24 : FVec F S100x1 .f32 := Host.absf main_arg5
  let main_cst_8 : FVec F S_ .f32 := constant S_ .f32 0x7F800000#32
  let main_v25 : FVec F S100x1 .f32 := broadcastInDim S100x1 ![] bcast_S_S100x1 main_cst_8
  let main_v26 : IVec S100x1 1 := cmpf .olt main_v24 main_v25
  let main_c_9 : IVec S_ 1 := constantI S_ 1 1#1
  let main_v27 : IVec S_ 1 := (fun x v => Host.reduce IntOp.andi x v reducesTo_S100x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S1048576x64 .f32) (main_arg1 : FVec F S64x100 .f32) (main_arg2 : FVec F S100 .f32) (main_arg3 : FVec F S5x100x100 .f32) (main_arg4 : FVec F S5x100 .f32) (main_arg5 : FVec F S100x1 .f32) (main_arg6 : FVec F S1 .f32) : IVec S_ 1 :=
  let main_v0 : FVec F S1048576x64 .f32 := Host.absf main_arg0
  let main_cst : FVec F S_ .f32 := constant S_ .f32 0x7F800000#32
  let main_v1 : FVec F S1048576x64 .f32 := broadcastInDim S1048576x64 ![] bcast_S_S1048576x64 main_cst
  let main_v2 : IVec S1048576x64 1 := cmpf .olt main_v0 main_v1
  let main_c : IVec S_ 1 := constantI S_ 1 1#1
  let main_v3 : IVec S_ 1 := (fun x v => Host.reduce IntOp.andi x v reducesTo_S1048576x64_S_d0_1 h_S_) main_v2 main_c
  let main_v4 : FVec F S64x100 .f32 := Host.absf main_arg1
  let main_cst_0 : FVec F S_ .f32 := constant S_ .f32 0x7F800000#32
  let main_v5 : FVec F S64x100 .f32 := broadcastInDim S64x100 ![] bcast_S_S64x100 main_cst_0
  let main_v6 : IVec S64x100 1 := cmpf .olt main_v4 main_v5
  let main_c_1 : IVec S_ 1 := constantI S_ 1 1#1
  let main_v7 : IVec S_ 1 := (fun x v => Host.reduce IntOp.andi x v reducesTo_S64x100_S_d0_1 h_S_) main_v6 main_c_1
  let main_v8 : IVec S_ 1 := andi main_v3 main_v7
  let main_v9 : FVec F S100 .f32 := Host.absf main_arg2
  let main_cst_2 : FVec F S_ .f32 := constant S_ .f32 0x7F800000#32
  let main_v10 : FVec F S100 .f32 := broadcastInDim S100 ![] bcast_S_S100 main_cst_2
  let main_v11 : IVec S100 1 := cmpf .olt main_v9 main_v10
  let main_c_3 : IVec S_ 1 := constantI S_ 1 1#1
  let main_v12 : IVec S_ 1 := (fun x v => Host.reduce IntOp.andi x v reducesTo_S100_S_d0 h_S_) main_v11 main_c_3
  let main_v13 : IVec S_ 1 := andi main_v8 main_v12
  let main_v14 : FVec F S5x100x100 .f32 := Host.absf main_arg3
  let main_cst_4 : FVec F S_ .f32 := constant S_ .f32 0x7F800000#32
  let main_v15 : FVec F S5x100x100 .f32 := broadcastInDim S5x100x100 ![] bcast_S_S5x100x100 main_cst_4
  let main_v16 : IVec S5x100x100 1 := cmpf .olt main_v14 main_v15
  fn_part1 (F := F) main_arg4 main_arg5 main_arg6 main_v13 main_v16
-- ==== Kernel.lean ====
abbrev S1048576x64 : Shape := ⟨2, ![1048576, 64]⟩
abbrev S64x100 : Shape := ⟨2, ![64, 100]⟩
abbrev S100 : Shape := ⟨1, ![100]⟩
abbrev S5x100x100 : Shape := ⟨3, ![5, 100, 100]⟩
abbrev S5x100 : Shape := ⟨2, ![5, 100]⟩
abbrev S100x1 : Shape := ⟨2, ![100, 1]⟩
abbrev S1 : Shape := ⟨1, ![1]⟩
abbrev S1x100 : Shape := ⟨2, ![1, 100]⟩
abbrev S1x1 : Shape := ⟨2, ![1, 1]⟩
abbrev S1048576x1 : Shape := ⟨2, ![1048576, 1]⟩
abbrev S8192x64 : Shape := ⟨2, ![8192, 64]⟩
abbrev S8192x1 : Shape := ⟨2, ![8192, 1]⟩
abbrev S8192x100 : Shape := ⟨2, ![8192, 100]⟩
abbrev S1x100x100 : Shape := ⟨3, ![1, 100, 100]⟩
abbrev S100x100 : Shape := ⟨2, ![100, 100]⟩
abbrev S8192 : Shape := ⟨1, ![8192]⟩
abbrev S1048576 : Shape := ⟨1, ![1048576]⟩

abbrev nBuf : Space → Nat
  | .hbm => 12
  | .vmem => 10
  | .smem => 0
  | _ => 0

abbrev bufTy : (tb : Table) → Fin (tcTables nBuf tb) → BufTy
  | .hbm, ⟨0, _⟩ => ⟨S1048576x64, .f32⟩
  | .hbm, ⟨1, _⟩ => ⟨S64x100, .f32⟩
  | .hbm, ⟨2, _⟩ => ⟨S100, .f32⟩
  | .hbm, ⟨3, _⟩ => ⟨S5x100x100, .f32⟩
  | .hbm, ⟨4, _⟩ => ⟨S5x100, .f32⟩
  | .hbm, ⟨5, _⟩ => ⟨S100x1, .f32⟩
  | .hbm, ⟨6, _⟩ => ⟨S1, .f32⟩
  | .hbm, ⟨7, _⟩ => ⟨S1x100, .f32⟩
  | .hbm, ⟨8, _⟩ => ⟨S1x100, .f32⟩
  | .hbm, ⟨9, _⟩ => ⟨S1x1, .f32⟩
  | .hbm, ⟨10, _⟩ => ⟨S1048576x1, .f32⟩
  | .hbm, ⟨11, _⟩ => ⟨S1048576, .f32⟩
  | .local _ .vmem, ⟨0, _⟩ => ⟨S8192x64, .f32⟩
  | .local _ .vmem, ⟨1, _⟩ => ⟨S8192x64, .f32⟩
  | .local _ .vmem, ⟨2, _⟩ => ⟨S64x100, .f32⟩
  | .local _ .vmem, ⟨3, _⟩ => ⟨S1x100, .f32⟩
  | .local _ .vmem, ⟨4, _⟩ => ⟨S5x100x100, .f32⟩
  | .local _ .vmem, ⟨5, _⟩ => ⟨S5x100, .f32⟩
  | .local _ .vmem, ⟨6, _⟩ => ⟨S1x100, .f32⟩
  | .local _ .vmem, ⟨7, _⟩ => ⟨S1x1, .f32⟩
  | .local _ .vmem, ⟨8, _⟩ => ⟨S8192x1, .f32⟩
  | .local _ .vmem, ⟨9, _⟩ => ⟨S8192x1, .f32⟩
  | _, _ => ⟨S1048576x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x100x100 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5x100 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x100 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8192x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S100_S1x100 : S100.ShapeCasts S1x100
  transposes_S100x1_S1x100_1_0 : S100x1.Transposes [1, 0] S1x100
  shapeCasts_S1_S1x1 : S1.ShapeCasts S1x1
  inb_S8192x64_S8192x64_0_0 : ∀ a, (![0, 0] : Fin 2 → Nat) a + S8192x64.size a ≤ S8192x64.size a
  h_S8192x64 : 0 < S8192x64.numel
  bitsLt_bf16_f32 : FTy.bits .bf16 < FTy.bits .f32
  inb_S64x100_S64x100_0_0 : ∀ a, (![0, 0] : Fin 2 → Nat) a + S64x100.size a ≤ S64x100.size a
  h_S64x100 : 0 < S64x100.numel
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S8192x100 : S1x100.Broadcasts S8192x100
  inb_S5x100x100_S1x100x100_0_0_0 : ∀ a, (![0, 0, 0] : Fin 3 → Nat) a + S1x100x100.size a ≤ S5x100x100.size a
  h_S1x100x100 : 0 < S1x100x100.numel
  shapeCasts_S1x100x100_S100x100 : S1x100x100.ShapeCasts S100x100
  inb_S5x100_S1x100_0_0 : ∀ a, (![0, 0] : Fin 2 → Nat) a + S1x100.size a ≤ S5x100.size a
  inb_S5x100x100_S1x100x100_1_0_0 : ∀ a, (![1, 0, 0] : Fin 3 → Nat) a + S1x100x100.size a ≤ S5x100x100.size a
  inb_S5x100_S1x100_1_0 : ∀ a, (![1, 0] : Fin 2 → Nat) a + S1x100.size a ≤ S5x100.size a
  inb_S5x100x100_S1x100x100_2_0_0 : ∀ a, (![2, 0, 0] : Fin 3 → Nat) a + S1x100x100.size a ≤ S5x100x100.size a
  inb_S5x100_S1x100_2_0 : ∀ a, (![2, 0] : Fin 2 → Nat) a + S1x100.size a ≤ S5x100.size a
  inb_S5x100x100_S1x100x100_3_0_0 : ∀ a, (![3, 0, 0] : Fin 3 → Nat) a + S1x100x100.size a ≤ S5x100x100.size a
  inb_S5x100_S1x100_3_0 : ∀ a, (![3, 0] : Fin 2 → Nat) a + S1x100.size a ≤ S5x100.size a
  inb_S5x100x100_S1x100x100_4_0_0 : ∀ a, (![4, 0, 0] : Fin 3 → Nat) a + S1x100x100.size a ≤ S5x100x100.size a
  inb_S5x100_S1x100_4_0 : ∀ a, (![4, 0] : Fin 2 → Nat) a + S1x100.size a ≤ S5x100.size a
  reduces_S8192x100_S8192 : S8192x100.Reduces [1] S8192
  shapeCasts_S8192_S8192x1 : S8192.ShapeCasts S8192x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8192x1 : S1x1.Broadcasts S8192x1
  inb_S8192x1_S8192x1_0_0 : ∀ a, (![0, 0] : Fin 2 → Nat) a + S8192x1.size a ≤ S8192x1.size a
  h_S8192x1 : 0 < S8192x1.numel
  shapeCasts_S1048576x1_S1048576 : S1048576x1.ShapeCasts S1048576
  dot_S8192x64_S64x100_S8192x100_1_0_0_1_n_n_wf : DotDims.WF S8192x64 S64x100 S8192x100 [1] [0] [0] [1] [] []
  dot_S8192x100_S100x100_S8192x100_1_0_0_1_n_n_wf : DotDims.WF S8192x100 S100x100 S8192x100 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S1048576x64.size a
  hwx0_0 : ∀ i : grid0.Coords, EltTy.bits .f32 = 32 ∨ (Rect.block (s := S1048576x64) S8192x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x100.size a ≤ S64x100.size a
  hwx0_1 : ∀ i : grid0.Coords, EltTy.bits .f32 = 32 ∨ (Rect.block (s := S64x100) S64x100.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x100.size a ≤ S1x100.size a
  hwx0_2 : ∀ i : grid0.Coords, EltTy.bits .f32 = 32 ∨ (Rect.block (s := S1x100) S1x100.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x100x100.size a ≤ S5x100x100.size a
  hwx0_3 : ∀ i : grid0.Coords, EltTy.bits .f32 = 32 ∨ (Rect.block (s := S5x100x100) S5x100x100.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S5x100.size a ≤ S5x100.size a
  hwx0_4 : ∀ i : grid0.Coords, EltTy.bits .f32 = 32 ∨ (Rect.block (s := S5x100) S5x100.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x100.size a ≤ S1x100.size a
  hwx0_5 : ∀ i : grid0.Coords, EltTy.bits .f32 = 32 ∨ (Rect.block (s := S1x100) S1x100.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8192x1.size a ≤ S1048576x1.size a
  hwx0_7 : ∀ i : grid0.Coords, EltTy.bits .f32 = 32 ∨ (Rect.block (s := S1048576x1) S8192x1.size (cc0_transform_7 i) (hinb0_7 i)).WholeWords (EltTy.packing .f32)

variable [Facts₀]

def dot_S8192x64_S64x100_S8192x100_1_0_0_1_n_n : DotDims S8192x64 S64x100 S8192x100 where
  lhsContracting := [1]
  rhsContracting := [0]
  lhsNonContracting := [0]
  rhsNonContracting := [1]
  lhsBatch := []
  rhsBatch := []
  wf := dot_S8192x64_S64x100_S8192x100_1_0_0_1_n_n_wf
def dot_S8192x100_S100x100_S8192x100_1_0_0_1_n_n : DotDims S8192x100 S100x100 S8192x100 where
  lhsContracting := [1]
  rhsContracting := [0]
  lhsNonContracting := [0]
  rhsNonContracting := [1]
  lhsBatch := []
  rhsBatch := []
  wf := dot_S8192x100_S100x100_S8192x100_1_0_0_1_n_n_wf

abbrev win0_0 : Pipeline.Window sig grid0 :=
  Pipeline.Window.ofSpec (Memref.whole main_arg0) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S5x100x100.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S5x100.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x100.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S8192x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1048576x64 : Shape := ⟨2, ![1048576, 64]⟩
abbrev S64x100 : Shape := ⟨2, ![64, 100]⟩
abbrev S100 : Shape := ⟨1, ![100]⟩
abbrev S5x100x100 : Shape := ⟨3, ![5, 100, 100]⟩
abbrev S5x100 : Shape := ⟨2, ![5, 100]⟩
abbrev S100x1 : Shape := ⟨2, ![100, 1]⟩
abbrev S1 : Shape := ⟨1, ![1]⟩
abbrev S1048576x100 : Shape := ⟨2, ![1048576, 100]⟩
abbrev S1x100 : Shape := ⟨2, ![1, 100]⟩
abbrev S_ : Shape := ⟨0, ![]⟩
abbrev S1x100x100 : Shape := ⟨3, ![1, 100, 100]⟩
abbrev S100x100 : Shape := ⟨2, ![100, 100]⟩
abbrev S1048576x1 : Shape := ⟨2, ![1048576, 1]⟩
abbrev S1x1 : Shape := ⟨2, ![1, 1]⟩
abbrev S1048576 : Shape := ⟨1, ![1048576]⟩

abbrev nBuf : Space → Nat
  | .hbm => 75
  | .vmem => 0
  | .smem => 0
  | _ => 0

abbrev bufTy : (tb : Table) → Fin (tcTables nBuf tb) → BufTy
  | .hbm, ⟨0, _⟩ => ⟨S1048576x64, .f32⟩
  | .hbm, ⟨1, _⟩ => ⟨S64x100, .f32⟩
  | .hbm, ⟨2, _⟩ => ⟨S100, .f32⟩
  | .hbm, ⟨3, _⟩ => ⟨S5x100x100, .f32⟩
  | .hbm, ⟨4, _⟩ => ⟨S5x100, .f32⟩
  | .hbm, ⟨5, _⟩ => ⟨S100x1, .f32⟩
  | .hbm, ⟨6, _⟩ => ⟨S1, .f32⟩
  | .hbm, ⟨7, _⟩ => ⟨S1048576x100, .f32⟩
  | .hbm, ⟨8, _⟩ => ⟨S1x100, .f32⟩
  | .hbm, ⟨9, _⟩ => ⟨S1048576x100, .f32⟩
  | .hbm, ⟨10, _⟩ => ⟨S1048576x100, .f32⟩
  | .hbm, ⟨11, _⟩ => ⟨S_, .f32⟩
  | .hbm, ⟨12, _⟩ => ⟨S1048576x100, .f32⟩
  | .hbm, ⟨13, _⟩ => ⟨S1048576x100, .f32⟩
  | .hbm, ⟨14, _⟩ => ⟨S1x100x100, .f32⟩
  | .hbm, ⟨15, _⟩ => ⟨S100x100, .f32⟩
  | .hbm, ⟨16, _⟩ => ⟨S1048576x100, .f32⟩
  | .hbm, ⟨17, _⟩ => ⟨S1x100, .f32⟩
  | .hbm, ⟨18, _⟩ => ⟨S100, .f32⟩
  | .hbm, ⟨19, _⟩ => ⟨S1x100, .f32⟩
  | .hbm, ⟨20, _⟩ => ⟨S1048576x100, .f32⟩
  | .hbm, ⟨21, _⟩ => ⟨S1048576x100, .f32⟩
  | .hbm, ⟨22, _⟩ => ⟨S_, .f32⟩
  | .hbm, ⟨23, _⟩ => ⟨S1048576x100, .f32⟩
  | .hbm, ⟨24, _⟩ => ⟨S1048576x100, .f32⟩
  | .hbm, ⟨25, _⟩ => ⟨S1x100x100, .f32⟩
  | .hbm, ⟨26, _⟩ => ⟨S100x100, .f32⟩
  | .hbm, ⟨27, _⟩ => ⟨S1048576x100, .f32⟩
  | .hbm, ⟨28, _⟩ => ⟨S1x100, .f32⟩
  | .hbm, ⟨29, _⟩ => ⟨S100, .f32⟩
  | .hbm, ⟨30, _⟩ => ⟨S1x100, .f32⟩
  | .hbm, ⟨31, _⟩ => ⟨S1048576x100, .f32⟩
  | .hbm, ⟨32, _⟩ => ⟨S1048576x100, .f32⟩
  | .hbm, ⟨33, _⟩ => ⟨S_, .f32⟩
  | .hbm, ⟨34, _⟩ => ⟨S1048576x100, .f32⟩
  | .hbm, ⟨35, _⟩ => ⟨S1048576x100, .f32⟩
  | .hbm, ⟨36, _⟩ => ⟨S1x100x100, .f32⟩
  | .hbm, ⟨37, _⟩ => ⟨S100x100, .f32⟩
  | .hbm, ⟨38, _⟩ => ⟨S1048576x100, .f32⟩
  | .hbm, ⟨39, _⟩ => ⟨S1x100, .f32⟩
  | .hbm, ⟨40, _⟩ => ⟨S100, .f32⟩
  | .hbm, ⟨41, _⟩ => ⟨S1x100, .f32⟩
  | .hbm, ⟨42, _⟩ => ⟨S1048576x100, .f32⟩
  | .hbm, ⟨43, _⟩ => ⟨S1048576x100, .f32⟩
  | .hbm, ⟨44, _⟩ => ⟨S_, .f32⟩
  | .hbm, ⟨45, _⟩ => ⟨S1048576x100, .f32⟩
  | .hbm, ⟨46, _⟩ => ⟨S1048576x100, .f32⟩
  | .hbm, ⟨47, _⟩ => ⟨S1x100x100, .f32⟩
  | .hbm, ⟨48, _⟩ => ⟨S100x100, .f32⟩
  | .hbm, ⟨49, _⟩ => ⟨S1048576x100, .f32⟩
  | .hbm, ⟨50, _⟩ => ⟨S1x100, .f32⟩
  | .hbm, ⟨51, _⟩ => ⟨S100, .f32⟩
  | .hbm, ⟨52, _⟩ => ⟨S1x100, .f32⟩
  | .hbm, ⟨53, _⟩ => ⟨S1048576x100, .f32⟩
  | .hbm, ⟨54, _⟩ => ⟨S1048576x100, .f32⟩
  | .hbm, ⟨55, _⟩ => ⟨S_, .f32⟩
  | .hbm, ⟨56, _⟩ => ⟨S1048576x100, .f32⟩
  | .hbm, ⟨57, _⟩ => ⟨S1048576x100, .f32⟩
  | .hbm, ⟨58, _⟩ => ⟨S1x100x100, .f32⟩
  | .hbm, ⟨59, _⟩ => ⟨S100x100, .f32⟩
  | .hbm, ⟨60, _⟩ => ⟨S1048576x100, .f32⟩
  | .hbm, ⟨61, _⟩ => ⟨S1x100, .f32⟩
  | .hbm, ⟨62, _⟩ => ⟨S100, .f32⟩
  | .hbm, ⟨63, _⟩ => ⟨S1x100, .f32⟩
  | .hbm, ⟨64, _⟩ => ⟨S1048576x100, .f32⟩
  | .hbm, ⟨65, _⟩ => ⟨S1048576x100, .f32⟩
  | .hbm, ⟨66, _⟩ => ⟨S_, .f32⟩
  | .hbm, ⟨67, _⟩ => ⟨S1048576x100, .f32⟩
  | .hbm, ⟨68, _⟩ => ⟨S1048576x100, .f32⟩
  | .hbm, ⟨69, _⟩ => ⟨S1048576x1, .f32⟩
  | .hbm, ⟨70, _⟩ => ⟨S1x1, .f32⟩
  | .hbm, ⟨71, _⟩ => ⟨S1048576x1, .f32⟩
  | .hbm, ⟨72, _⟩ => ⟨S1048576x1, .f32⟩
  | .hbm, ⟨73, _⟩ => ⟨S1048576, .f32⟩
  | .hbm, ⟨74, _⟩ => ⟨S1048576, .f32⟩
  | _, _ => ⟨S1048576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call1_cst : Ref sig .tc := ⟨.hbm, 22, rfl⟩
abbrev main_call1_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call2_cst : Ref sig .tc := ⟨.hbm, 33, rfl⟩
abbrev main_call2_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_call3_cst : Ref sig .tc := ⟨.hbm, 44, rfl⟩
abbrev main_call3_v0 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_call4_cst : Ref sig .tc := ⟨.hbm, 55, rfl⟩
abbrev main_call4_v0 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_call5_cst : Ref sig .tc := ⟨.hbm, 66, rfl⟩
abbrev main_call5_v0 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩

abbrev nD : Nat := 1
abbrev τ : Topo := Topo.v7x

variable {F : FTy → Type} [FloatOps F]

class Facts₀ : Prop where
  bcast_S100_S1x100_1 : S100.BroadcastsInDim S1x100 (![1] : Fin 1 → Fin S1x100.rank)
  bcast_S1x100_S1048576x100_0_1 : S1x100.BroadcastsInDim S1048576x100 (![0, 1] : Fin 2 → Fin S1048576x100.rank)
  bcast_S_S1048576x100 : S_.BroadcastsInDim S1048576x100 (![] : Fin 0 → Fin S1048576x100.rank)
  slices_S5x100x100_S1x100x100_0_0_0 : S5x100x100.Slices ![0, 0, 0] S1x100x100
  shapeCasts_S1x100x100_S100x100 : S1x100x100.ShapeCasts S100x100
  slices_S5x100_S1x100_0_0 : S5x100.Slices ![0, 0] S1x100
  shapeCasts_S1x100_S100 : S1x100.ShapeCasts S100
  slices_S5x100x100_S1x100x100_1_0_0 : S5x100x100.Slices ![1, 0, 0] S1x100x100
  slices_S5x100_S1x100_1_0 : S5x100.Slices ![1, 0] S1x100
  slices_S5x100x100_S1x100x100_2_0_0 : S5x100x100.Slices ![2, 0, 0] S1x100x100
  slices_S5x100_S1x100_2_0 : S5x100.Slices ![2, 0] S1x100
  slices_S5x100x100_S1x100x100_3_0_0 : S5x100x100.Slices ![3, 0, 0] S1x100x100
  slices_S5x100_S1x100_3_0 : S5x100.Slices ![3, 0] S1x100
  slices_S5x100x100_S1x100x100_4_0_0 : S5x100x100.Slices ![4, 0, 0] S1x100x100
  slices_S5x100_S1x100_4_0 : S5x100.Slices ![4, 0] S1x100
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  shapeCasts_S1048576x1_S1048576 : S1048576x1.ShapeCasts S1048576
  dot_S1048576x64_S64x100_S1048576x100_1_0_0_1_n_n_wf : DotDims.WF S1048576x64 S64x100 S1048576x100 [1] [0] [0] [1] [] []
  dot_S1048576x100_S100x100_S1048576x100_1_0_0_1_n_n_wf : DotDims.WF S1048576x100 S100x100 S1048576x100 [1] [0] [0] [1] [] []
  dot_S1048576x100_S100x1_S1048576x1_1_0_0_1_n_n_wf : DotDims.WF S1048576x100 S100x1 S1048576x1 [1] [0] [0] [1] [] []

variable [Facts₀]

def dot_S1048576x64_S64x100_S1048576x100_1_0_0_1_n_n : DotDims S1048576x64 S64x100 S1048576x100 where
  lhsContracting := [1]
  rhsContracting := [0]
  lhsNonContracting := [0]
  rhsNonContracting := [1]
  lhsBatch := []
  rhsBatch := []
  wf := dot_S1048576x64_S64x100_S1048576x100_1_0_0_1_n_n_wf
def dot_S1048576x100_S100x100_S1048576x100_1_0_0_1_n_n : DotDims S1048576x100 S100x100 S1048576x100 where
  lhsContracting := [1]
  rhsContracting := [0]
  lhsNonContracting := [0]
  rhsNonContracting := [1]
  lhsBatch := []
  rhsBatch := []
  wf := dot_S1048576x100_S100x100_S1048576x100_1_0_0_1_n_n_wf
def dot_S1048576x100_S100x1_S1048576x1_1_0_0_1_n_n : DotDims S1048576x100 S100x1 S1048576x1 where
  lhsContracting := [1]
  rhsContracting := [0]
  lhsNonContracting := [0]
  rhsNonContracting := [1]
  lhsBatch := []
  rhsBatch := []
  wf := dot_S1048576x100_S100x1_S1048576x1_1_0_0_1_n_n_wf

class Facts : Prop extends Facts₀ where

variable [Facts]
-- ==== Proof.MlpSpec.lean ====
/-
  The function both programs compute, read one input row at a time over the extended reals.

  A row `x` of 64 numbers goes through a dense layer with a rectifier into 100 numbers, then through five more
  such layers of width 100, and is finally projected to one number whose absolute value is the result:

    h⁰_j   = max (Σ_k x_k · Win_{k j} + bin_j) 0
    hˡ⁺¹_j = max (Σ_k hˡ_k · Wh_{l k j} + bh_{l j}) 0        (l = 0 … 4)
    out    = | Σ_k h⁵_k · wout_k + bout |

  On the extended reals the absolute value is `max s (-s)`. Every sum is a finite sum in a commutative monoid, so the
  order and grouping in which a program accumulates it does not matter, and no term of the definition needs its
  arguments to be finite: the two programs are compared as the same expression, not through an algebraic law that
  could fail at an infinity.
-/
import Idealize.ShloMosaic.PureOps.Ideal
import Idealize.ShloMosaic.Lib.ValueIdx

noncomputable section

namespace Cert.Mlp

open Idealize.ShloMosaic Idealize.ShloMosaic.ValueIdx

/-- A dense layer followed by the rectifier, on one row: output `j` is `max (Σ_k h_k · W_{k j} + b_j) 0`. -/
def layer {K J : ℕ} (h : Fin K → EReal) (W : Fin K → Fin J → EReal) (b : Fin J → EReal) : Fin J → EReal :=
  fun j => max ((∑ k : Fin K, h k * W k j) + b j) 0

/-- The projection of a row to one number, a bias added, and the absolute value taken: `|Σ_k h_k · w_k + b|`,
    the absolute value written as the larger of the number and its negation. -/
def head {K : ℕ} (h : Fin K → EReal) (w : Fin K → EReal) (b : EReal) : EReal :=
  max ((∑ k : Fin K, h k * w k) + b) (-((∑ k : Fin K, h k * w k) + b))

/-- The whole network on one row: the input layer, the five hidden layers in order, the projection. -/
def mlpRow (x : Fin 64 → EReal) (Win : Fin 64 → Fin 100 → EReal) (bin : Fin 100 → EReal)
    (Wh : Fin 5 → Fin 100 → Fin 100 → EReal) (bh : Fin 5 → Fin 100 → EReal)
    (wout : Fin 100 → EReal) (bout : EReal) : EReal :=
  head (layer (layer (layer (layer (layer (layer x Win bin) (Wh 0) (bh 0)) (Wh 1) (bh 1)) (Wh 2) (bh 2))
    (Wh 3) (bh 3)) (Wh 4) (bh 4)) wout bout

/-- The network at row `r` of the argument arrays: the row of `a0`, the input weights `a1` and bias `a2`, layer `l`'s
    weights the `l`-th matrix of `a3` and its bias the `l`-th row of `a4`, the projection the one column of `a5` and
    its bias the one entry of `a6`. -/
def mlpAt (a0 : (⟨2, ![1048576, 64]⟩ : Shape).Idx → EReal) (a1 : (⟨2, ![64, 100]⟩ : Shape).Idx → EReal)
    (a2 : (⟨1, ![100]⟩ : Shape).Idx → EReal) (a3 : (⟨3, ![5, 100, 100]⟩ : Shape).Idx → EReal)
    (a4 : (⟨2, ![5, 100]⟩ : Shape).Idx → EReal) (a5 : (⟨2, ![100, 1]⟩ : Shape).Idx → EReal)
    (a6 : (⟨1, ![1]⟩ : Shape).Idx → EReal) (r : Fin 1048576) : EReal :=
  mlpRow (fun k => a0 (ix2 r k)) (fun k j => a1 (ix2 k j)) (fun j => a2 (ix1 j)) (fun l k j => a3 (ix3 l k j))
    (fun l j => a4 (ix2 l j)) (fun k => a5 (ix2 k (0 : Fin 1))) (a6 (ix1 (0 : Fin 1)))

/-- The result array: entry `i` is the network at row `i`. -/
def mlp (a0 : (⟨2, ![1048576, 64]⟩ : Shape).Idx → EReal) (a1 : (⟨2, ![64, 100]⟩ : Shape).Idx → EReal)
    (a2 : (⟨1, ![100]⟩ : Shape).Idx → EReal) (a3 : (⟨3, ![5, 100, 100]⟩ : Shape).Idx → EReal)
    (a4 : (⟨2, ![5, 100]⟩ : Shape).Idx → EReal) (a5 : (⟨2, ![100, 1]⟩ : Shape).Idx → EReal)
    (a6 : (⟨1, ![1]⟩ : Shape).Idx → EReal) : (⟨1, ![1048576]⟩ : Shape).Idx → EReal :=
  fun i => mlpAt a0 a1 a2 a3 a4 a5 a6 (i 0)

end Cert.Mlp

end
-- ==== Proof.KernelRow.lean ====
/-
  The kernel's body, read one row of its block at a time, is the network of `Cert.Mlp`.

  At a grid point the body holds a block of 8192 rows of the input and the whole of every weight and bias array. It
  rounds the operands of each matrix product to a narrower float format (the identity on the extended reals),
  multiplies into a zero accumulator, adds the bias row broadcast over the block's rows, takes the maximum with zero —
  six times over, the hidden layers' weights and biases read from the stacks one matrix and one row at a time — and ends
  with the projection done as a product with the projection row broadcast over the rows, summed along each row, plus the
  one bias entry, and the absolute value.

  Row `p` of every intermediate depends only on row `p` of the one before: a matrix product into a zero accumulator
  at `(p, j)` is the sum over `k` of the left operand at `(p, k)` times the right at `(k, j)`, and the row sum at `p`
  is the sum over `k` of the summand at `(p, k)`. So each stage at `(p, ·)` is one `layer` of the previous stage at
  `(p, ·)`, and the stored value at `(p, 0)` is `mlpRow` of row `p` of the block.
-/
import proofs.«147325_j26860725469574_2_alg».proof.Proof.Gen.KernelIdeal.Skeleton
import proofs.«147325_j26860725469574_2_alg».proof.Proof.MlpSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RowValue

open Cert.KernelIdeal Cert.KernelIdeal.Gen Idealize.ShloMosaic Idealize.ShloMosaic.ValueIdx Cert.Mlp

/-! ## The two matrix products at an index -/

/-- The input layer's product, a block of rows [8192, 64] times the input weights [64, 100] into a zero accumulator: entry `(p, j)` is the sum over the 64 contracted positions `k` of the left operand at `(p, k)` times the right at `(k, j)`. The operand indices of the product, coordinate by coordinate, first. -/
theorem dot_in_lhs0 (i : S8192x100.Idx) (q : dot_S8192x64_S64x100_S8192x100_1_0_0_1_n_n.contr.Idx) : (dot_S8192x64_S64x100_S8192x100_1_0_0_1_n_n.lhsIdx i q 0).val = (i 0).val := by
  unfold DotDims.lhsIdx
  rw [dif_neg (show ¬(0 : Fin S8192x64.rank) ∈ dot_S8192x64_S64x100_S8192x100_1_0_0_1_n_n.lhsBatch by decide),
    dif_pos (show (0 : Fin S8192x64.rank) ∈ dot_S8192x64_S64x100_S8192x100_1_0_0_1_n_n.lhsNonContracting by decide)]
  rfl
theorem dot_in_lhs1 (i : S8192x100.Idx) (q : dot_S8192x64_S64x100_S8192x100_1_0_0_1_n_n.contr.Idx) : (dot_S8192x64_S64x100_S8192x100_1_0_0_1_n_n.lhsIdx i q 1).val = (q ⟨0, by decide⟩).val :=
  dot_S8192x64_S64x100_S8192x100_1_0_0_1_n_n.lhsIdx_val_of_single rfl i q
theorem dot_in_rhs0 (i : S8192x100.Idx) (q : dot_S8192x64_S64x100_S8192x100_1_0_0_1_n_n.contr.Idx) : (dot_S8192x64_S64x100_S8192x100_1_0_0_1_n_n.rhsIdx i q 0).val = (q ⟨0, by decide⟩).val :=
  dot_S8192x64_S64x100_S8192x100_1_0_0_1_n_n.rhsIdx_val_of_single rfl i q
theorem dot_in_rhs1 (i : S8192x100.Idx) (q : dot_S8192x64_S64x100_S8192x100_1_0_0_1_n_n.contr.Idx) : (dot_S8192x64_S64x100_S8192x100_1_0_0_1_n_n.rhsIdx i q 1).val = (i 1).val := by
  unfold DotDims.rhsIdx
  rw [dif_neg (show ¬(1 : Fin S64x100.rank) ∈ dot_S8192x64_S64x100_S8192x100_1_0_0_1_n_n.rhsBatch by decide),
    dif_pos (show (1 : Fin S64x100.rank) ∈ dot_S8192x64_S64x100_S8192x100_1_0_0_1_n_n.rhsNonContracting by decide)]
  rfl
theorem dot_in_apply (l : FVec Ideal S8192x64 .bf16) (r : FVec Ideal S64x100 .bf16) (p : Fin 8192) (j : Fin 100) :
    matmul dot_S8192x64_S64x100_S8192x100_1_0_0_1_n_n none l r (constant (F := Ideal) S8192x100 .f32 0x00000000#32) (ix2 p j)
      = ∑ k : Fin 64, l (ix2 p k) * r (ix2 k j) := by
  show FloatOps.matmul dot_S8192x64_S64x100_S8192x100_1_0_0_1_n_n none l r (constant (F := Ideal) S8192x100 .f32 0x00000000#32) (ix2 p j) = _
  rw [Ideal.matmul_constant_zero_apply, ← Equiv.sum_comp (contrEquiv1 dot_S8192x64_S64x100_S8192x100_1_0_0_1_n_n 64 rfl rfl).symm]
  refine Finset.sum_congr rfl fun k _ => ?_
  have hk := contrEquiv1_symm_val dot_S8192x64_S64x100_S8192x100_1_0_0_1_n_n 64 rfl rfl k
  have el : dot_S8192x64_S64x100_S8192x100_1_0_0_1_n_n.lhsIdx (ix2 p j) ((contrEquiv1 dot_S8192x64_S64x100_S8192x100_1_0_0_1_n_n 64 rfl rfl).symm k) = ix2 p k := funext fun a => Fin.ext (by
    match a with
    | ⟨0, _⟩ => exact dot_in_lhs0 _ _
    | ⟨1, _⟩ => exact (dot_in_lhs1 _ _).trans hk)
  have er : dot_S8192x64_S64x100_S8192x100_1_0_0_1_n_n.rhsIdx (ix2 p j) ((contrEquiv1 dot_S8192x64_S64x100_S8192x100_1_0_0_1_n_n 64 rfl rfl).symm k) = ix2 k j := funext fun a => Fin.ext (by
    match a with
    | ⟨0, _⟩ => exact (dot_in_rhs0 _ _).trans hk
    | ⟨1, _⟩ => exact dot_in_rhs1 _ _)
  rw [el, er]

/-- A hidden layer's product, [8192, 100] times [100, 100] into a zero accumulator: entry `(p, j)` is the sum over the 100 contracted positions `k` of the left operand at `(p, k)` times the right at `(k, j)`. -/
theorem dot_hid_lhs0 (i : S8192x100.Idx) (q : dot_S8192x100_S100x100_S8192x100_1_0_0_1_n_n.contr.Idx) : (dot_S8192x100_S100x100_S8192x100_1_0_0_1_n_n.lhsIdx i q 0).val = (i 0).val := by
  unfold DotDims.lhsIdx
  rw [dif_neg (show ¬(0 : Fin S8192x100.rank) ∈ dot_S8192x100_S100x100_S8192x100_1_0_0_1_n_n.lhsBatch by decide),
    dif_pos (show (0 : Fin S8192x100.rank) ∈ dot_S8192x100_S100x100_S8192x100_1_0_0_1_n_n.lhsNonContracting by decide)]
  rfl
theorem dot_hid_lhs1 (i : S8192x100.Idx) (q : dot_S8192x100_S100x100_S8192x100_1_0_0_1_n_n.contr.Idx) : (dot_S8192x100_S100x100_S8192x100_1_0_0_1_n_n.lhsIdx i q 1).val = (q ⟨0, by decide⟩).val :=
  dot_S8192x100_S100x100_S8192x100_1_0_0_1_n_n.lhsIdx_val_of_single rfl i q
theorem dot_hid_rhs0 (i : S8192x100.Idx) (q : dot_S8192x100_S100x100_S8192x100_1_0_0_1_n_n.contr.Idx) : (dot_S8192x100_S100x100_S8192x100_1_0_0_1_n_n.rhsIdx i q 0).val = (q ⟨0, by decide⟩).val :=
  dot_S8192x100_S100x100_S8192x100_1_0_0_1_n_n.rhsIdx_val_of_single rfl i q
theorem dot_hid_rhs1 (i : S8192x100.Idx) (q : dot_S8192x100_S100x100_S8192x100_1_0_0_1_n_n.contr.Idx) : (dot_S8192x100_S100x100_S8192x100_1_0_0_1_n_n.rhsIdx i q 1).val = (i 1).val := by
  unfold DotDims.rhsIdx
  rw [dif_neg (show ¬(1 : Fin S100x100.rank) ∈ dot_S8192x100_S100x100_S8192x100_1_0_0_1_n_n.rhsBatch by decide),
    dif_pos (show (1 : Fin S100x100.rank) ∈ dot_S8192x100_S100x100_S8192x100_1_0_0_1_n_n.rhsNonContracting by decide)]
  rfl
theorem dot_hid_apply (l : FVec Ideal S8192x100 .bf16) (r : FVec Ideal S100x100 .bf16) (p : Fin 8192) (j : Fin 100) :
    matmul dot_S8192x100_S100x100_S8192x100_1_0_0_1_n_n none l r (constant (F := Ideal) S8192x100 .f32 0x00000000#32) (ix2 p j)
      = ∑ k : Fin 100, l (ix2 p k) * r (ix2 k j) := by
  show FloatOps.matmul dot_S8192x100_S100x100_S8192x100_1_0_0_1_n_n none l r (constant (F := Ideal) S8192x100 .f32 0x00000000#32) (ix2 p j) = _
  rw [Ideal.matmul_constant_zero_apply, ← Equiv.sum_comp (contrEquiv1 dot_S8192x100_S100x100_S8192x100_1_0_0_1_n_n 100 rfl rfl).symm]
  refine Finset.sum_congr rfl fun k _ => ?_
  have hk := contrEquiv1_symm_val dot_S8192x100_S100x100_S8192x100_1_0_0_1_n_n 100 rfl rfl k
  have el : dot_S8192x100_S100x100_S8192x100_1_0_0_1_n_n.lhsIdx (ix2 p j) ((contrEquiv1 dot_S8192x100_S100x100_S8192x100_1_0_0_1_n_n 100 rfl rfl).symm k) = ix2 p k := funext fun a => Fin.ext (by
    match a with
    | ⟨0, _⟩ => exact dot_hid_lhs0 _ _
    | ⟨1, _⟩ => exact (dot_hid_lhs1 _ _).trans hk)
  have er : dot_S8192x100_S100x100_S8192x100_1_0_0_1_n_n.rhsIdx (ix2 p j) ((contrEquiv1 dot_S8192x100_S100x100_S8192x100_1_0_0_1_n_n 100 rfl rfl).symm k) = ix2 k j := funext fun a => Fin.ext (by
    match a with
    | ⟨0, _⟩ => exact (dot_hid_rhs0 _ _).trans hk
    | ⟨1, _⟩ => exact dot_hid_rhs1 _ _)
  rw [el, er]

/-! ## The three forms a layer takes in the body -/

/-- The input layer on a block: the product of the block with the input weights, the bias row broadcast over the rows
    and added, the maximum with zero. -/
def blockIn (x : Vec Ideal S8192x64 .f32) (w : Vec Ideal S64x100 .f32) (b : Vec Ideal S1x100 .f32) : FVec Ideal S8192x100 .f32 :=
  maximumf
    (addf
      (matmul dot_S8192x64_S64x100_S8192x100_1_0_0_1_n_n none (truncf .bf16 x bitsLt_bf16_f32) (truncf .bf16 w bitsLt_bf16_f32)
        (constant (F := Ideal) S8192x100 .f32 0x00000000#32))
      (broadcastTo S8192x100 (shapeCast S1x100 b shapeCasts_S1x100_S1x100) broadcasts_S1x100_S8192x100))
    (broadcast S8192x100 (Scalar.ofBits (F := Ideal) .f32 0x00000000#32))

/-- A hidden layer on a block: the weights arrive as one matrix of the stack with its unit axis still on, the bias as one
    row of the stacked biases. -/
def blockHidden (h : FVec Ideal S8192x100 .f32) (W : Vec Ideal S1x100x100 .f32) (b : Vec Ideal S1x100 .f32) :
    FVec Ideal S8192x100 .f32 :=
  maximumf
    (addf
      (matmul dot_S8192x100_S100x100_S8192x100_1_0_0_1_n_n none (truncf .bf16 h bitsLt_bf16_f32)
        (truncf .bf16 (shapeCast S100x100 W shapeCasts_S1x100x100_S100x100) bitsLt_bf16_f32)
        (constant (F := Ideal) S8192x100 .f32 0x00000000#32))
      (broadcastTo S8192x100 b broadcasts_S1x100_S8192x100))
    (broadcast S8192x100 (Scalar.ofBits (F := Ideal) .f32 0x00000000#32))

/-- The sum of a block along each of its rows (the body's reduction over the second axis, from a zero start). -/
def rowSum (v : FVec Ideal S8192x100 .f32) : FVec Ideal S8192 .f32 :=
  multiReduction .add [1] S8192 v 0x00000000#32 reduces_S8192x100_S8192 (.inl rfl) rfl

/-- The projection on a block: the product with the projection row broadcast over the rows, summed along each row, the
    sums put back in a column, the one bias entry broadcast down the column and added, the absolute value. -/
def blockHead (h : FVec Ideal S8192x100 .f32) (w : Vec Ideal S1x100 .f32) (b : Vec Ideal S1x1 .f32) : FVec Ideal S8192x1 .f32 :=
  absf
    (addf
      (shapeCast S8192x1
        (rowSum (mulf h (broadcastTo S8192x100 (shapeCast S1x100 w shapeCasts_S1x100_S1x100) broadcasts_S1x100_S8192x100)))
        shapeCasts_S8192_S8192x1)
      (broadcastTo S8192x1 (shapeCast S1x1 b shapeCasts_S1x1_S1x1) broadcasts_S1x1_S8192x1))

/-- The value the body stores is these forms composed: the input layer, the five hidden layers each on its own matrix
    and bias row, the projection. (The body's arithmetic is one pure term of its loads; this is that term with its
    repeated pattern named.) -/
theorem payload_eq (x0 : Vec Ideal S8192x64 .f32) (x1 : Vec Ideal S64x100 .f32) (x2 : Vec Ideal S1x100 .f32)
    (w0 w1 w2 w3 w4 : Vec Ideal S1x100x100 .f32) (b0 b1 b2 b3 b4 : Vec Ideal S1x100 .f32)
    (x5 : Vec Ideal S1x100 .f32) (x6 : Vec Ideal S1x1 .f32) :
    k0_pay1 (k0_pay4 (k0_pay2 x0 x1 x2 w0 b0 w1 b1) (k0_pay3 w2) b2 w3 b3 w4 b4 x5 x6)
      = blockHead (blockHidden (blockHidden (blockHidden (blockHidden (blockHidden (blockIn x0 x1 x2) w0 b0) w1 b1) w2 b2)
          w3 b3) w4 b4) x5 x6 := rfl

/-! ## Each form at a row -/

/-- The zero the rectifier compares with is the extended real `0`. -/
theorem zero_word : Scalar.ofBits (F := Ideal) .f32 0x00000000#32 = (0 : EReal) := Ideal.ofBits_zero_f32

/-- Row `p` of the input layer is `layer` of row `p` of the block. -/
theorem blockIn_row (x : Vec Ideal S8192x64 .f32) (w : Vec Ideal S64x100 .f32) (b : Vec Ideal S1x100 .f32) (p : Fin 8192) :
    (fun j : Fin 100 => blockIn x w b (ix2 p j))
      = layer (fun k => x (ix2 p k)) (fun k j => w (ix2 k j)) (fun j => b (ix2 (0 : Fin 1) j)) := by
  funext j
  unfold blockIn layer
  rw [maximumf_apply, addf_apply, broadcast_apply, broadcastTo_1b_ab_apply, shapeCast_self, dot_in_apply, zero_word]
  rfl

/-- Row `p` of a hidden layer is `layer` of row `p` of its input, with the matrix's entries `(0, k, j)` and the bias row's
    entries `(0, j)`. -/
theorem blockHidden_row (h : FVec Ideal S8192x100 .f32) (W : Vec Ideal S1x100x100 .f32) (b : Vec Ideal S1x100 .f32)
    (p : Fin 8192) :
    (fun j : Fin 100 => blockHidden h W b (ix2 p j))
      = layer (fun k => h (ix2 p k)) (fun k j => W (ix3 (0 : Fin 1) k j)) (fun j => b (ix2 (0 : Fin 1) j)) := by
  funext j
  unfold blockHidden layer
  rw [maximumf_apply, addf_apply, broadcast_apply, broadcastTo_1b_ab_apply, dot_hid_apply, zero_word]
  refine congrArg (fun s => max (s + b (ix2 (0 : Fin 1) j)) 0) (Finset.sum_congr rfl fun k _ => ?_)
  rw [truncf_apply, truncf_apply, shapeCast_1ab_ab_apply]

/-- A vector of row sums put back in a column reads, at `(p, 0)`, the vector at `p`. -/
theorem column_of_vector {α : Type} (v : S8192.Idx → α) (p : Fin 8192) :
    shapeCast S8192x1 v shapeCasts_S8192_S8192x1 (ix2 p (0 : Fin 1)) = v (ix1 p) :=
  shapeCast_apply v shapeCasts_S8192_S8192x1 _ _ (by
    rw [Shape.rowMajor_val_one, Shape.rowMajor_val_two]
    show p.val = p.val * 1 + 0
    omega)

/-- The row sum at `p` is the sum over the 100 positions `k` of the block at `(p, k)`: a sum over one axis is the sum over
    that axis's coordinates of the source at the reduced index with the coordinate put back, which for the second axis of
    a matrix is `(p, k)`. -/
theorem rowSum_apply (v : FVec Ideal S8192x100 .f32) (p : Fin 8192) :
    rowSum v (ix1 p) = ∑ k : Fin 100, v (ix2 p k) := by
  show Ideal.reduceAdd reduces_S8192x100_S8192 v (ix1 p) = _
  refine (Ideal.reduceAdd_single reduces_S8192x100_S8192 v (ix1 p)).trans ?_
  show ∑ k : Fin 100, v (reduces_S8192x100_S8192.lift (ix1 p) k) = ∑ k : Fin 100, v (ix2 p k)
  refine Finset.sum_congr rfl fun k _ => congrArg v (funext fun a => Fin.ext (by
    match a with
    | ⟨0, _⟩ => rfl
    | ⟨1, _⟩ => rfl))

/-- The absolute value of a vector at an index is the larger of the entry and its negation. -/
theorem absf_at {s : Shape} (a : FVec Ideal s .f32) (i : s.Idx) : absf a i = max (a i) (-(a i)) := rfl

/-- Entry `(p, 0)` of the projection is `head` of row `p` of its input, with the projection row's entries `(0, k)` and
    the bias's one entry. -/
theorem blockHead_row (h : FVec Ideal S8192x100 .f32) (w : Vec Ideal S1x100 .f32) (b : Vec Ideal S1x1 .f32) (p : Fin 8192) :
    blockHead h w b (ix2 p (0 : Fin 1))
      = head (fun k => h (ix2 p k)) (fun k => w (ix2 (0 : Fin 1) k)) (b (ix2 (0 : Fin 1) (0 : Fin 1))) := by
  have hsum : rowSum (mulf h (broadcastTo S8192x100 (shapeCast S1x100 w shapeCasts_S1x100_S1x100) broadcasts_S1x100_S8192x100))
        (ix1 p) = ∑ k : Fin 100, h (ix2 p k) * w (ix2 (0 : Fin 1) k) := by
    rw [rowSum_apply]
    refine Finset.sum_congr rfl fun k _ => ?_
    rw [mulf_apply, broadcastTo_1b_ab_apply, shapeCast_self]
  unfold blockHead head
  rw [absf_at, addf_apply, column_of_vector, hsum, broadcastTo_1b_ab_apply, shapeCast_self]

/-! ## The stored value at a row -/

/-- Entry `(p, 0)` of what the body stores is the network on row `p` of the input block, with the weights and biases as
    the body loaded them: the hidden layers' matrices and bias rows each with a leading unit axis, the projection as a
    row. -/
theorem stored_row (x0 : Vec Ideal S8192x64 .f32) (x1 : Vec Ideal S64x100 .f32) (x2 : Vec Ideal S1x100 .f32)
    (w0 w1 w2 w3 w4 : Vec Ideal S1x100x100 .f32) (b0 b1 b2 b3 b4 : Vec Ideal S1x100 .f32)
    (x5 : Vec Ideal S1x100 .f32) (x6 : Vec Ideal S1x1 .f32) (p : Fin 8192) :
    k0_pay1 (k0_pay4 (k0_pay2 x0 x1 x2 w0 b0 w1 b1) (k0_pay3 w2) b2 w3 b3 w4 b4 x5 x6) (ix2 p (0 : Fin 1))
      = head (layer (layer (layer (layer (layer (layer (fun k => x0 (ix2 p k)) (fun k j => x1 (ix2 k j)) (fun j => x2 (ix2 (0 : Fin 1) j)))
          (fun k j => w0 (ix3 (0 : Fin 1) k j)) (fun j => b0 (ix2 (0 : Fin 1) j)))
          (fun k j => w1 (ix3 (0 : Fin 1) k j)) (fun j => b1 (ix2 (0 : Fin 1) j)))
          (fun k j => w2 (ix3 (0 : Fin 1) k j)) (fun j => b2 (ix2 (0 : Fin 1) j)))
          (fun k j => w3 (ix3 (0 : Fin 1) k j)) (fun j => b3 (ix2 (0 : Fin 1) j)))
          (fun k j => w4 (ix3 (0 : Fin 1) k j)) (fun j => b4 (ix2 (0 : Fin 1) j)))
          (fun k => x5 (ix2 (0 : Fin 1) k)) (x6 (ix2 (0 : Fin 1) (0 : Fin 1))) := by
  rw [payload_eq, blockHead_row, blockHidden_row, blockHidden_row, blockHidden_row, blockHidden_row, blockHidden_row, blockIn_row]

end Cert.KernelIdeal.RowValue

end
-- ==== Proof.KernelBlocks.lean ====
/-
  The kernel's blocks at a grid point, read from the argument arrays.

  The kernel runs its body at 128 grid points. At point `t` the body sees rows `8192·t … 8192·t + 8191` of the input
  and the whole of every other operand, and writes rows `8192·t … 8192·t + 8191` of a one-column result. Three of the
  operands reach the kernel through a host operation on an argument: the input bias as a row, the projection matrix
  transposed to a row, the projection bias as a 1×1 matrix. After the kernel the host drops the result's unit axis.

  The body at row `p` of its block is the network of `Cert.Mlp` on row `p` of the input block (Proof/KernelRow.lean);
  row `p` of the input block at point `t` is row `8192·t + p` of the input, and the other blocks are the arguments
  themselves read through the host operations above; so what point `t` writes back is block `t` of the one column
  `r ↦ mlpAt … r`. The 128 blocks tile the column (row `r` lies in block `r / 8192`), so the column is what the array
  holds after the run, and the host's reshape reads entry `r` of the result at `(r, 0)` of it.
-/
import proofs.«147325_j26860725469574_2_alg».proof.Proof.Gen.KernelIdeal.Frame
import proofs.«147325_j26860725469574_2_alg».proof.Proof.KernelRow
import Idealize.ShloMosaic.Lib.Pipeline.Value
import Idealize.ShloMosaic.Lib.ValueLayout
import Idealize.ShloMosaic.Lib.StableHlo.Run

set_option maxRecDepth 16384

noncomputable section

namespace Cert.KernelIdeal.BlockValue

open Cert.KernelIdeal Cert.KernelIdeal.Gen Cert.KernelIdeal.RowValue Idealize.ShloMosaic Idealize.ShloMosaic.TcCoe
open Idealize.ShloMosaic.ValueIdx Idealize.SL.Sem Cert.Mlp
open Idealize.ShloMosaic.Pipeline (Dat Cfg Window)

/-! ## The body at a row, as a function of the seven blocks it loads -/

theorem zeros2 : (![0, 0] : Fin 2 → Nat) = fun _ => 0 := funext fun a => by fin_cases a <;> rfl

/-! The body reads the stacked weights one matrix at a time and the stacked biases one row at a time: matrix `l` through
    the rectangle at offset `(l, 0, 0)` of extent `(1, 100, 100)`, whose element `(0, k, j)` is the stack's `(l, k, j)`;
    row `l` through the rectangle at offset `(l, 0)` of extent `(1, 100)`, whose element `(0, j)` is the stack's `(l, j)`. -/
theorem ld_matrix_0 (x3 : Vec Ideal S5x100x100 .f32) (k j : Fin 100) :
    View.ld x3 r0_3 (ix3 (0 : Fin 1) k j) = x3 (ix3 (0 : Fin 5) k j) :=
  congrArg x3 (funext fun a => Fin.ext (by
    match a with
    | ⟨0, _⟩ => rfl
    | ⟨1, _⟩ => show 0 + 1 * k.val = k.val; omega
    | ⟨2, _⟩ => show 0 + 1 * j.val = j.val; omega))
theorem ld_matrix_1 (x3 : Vec Ideal S5x100x100 .f32) (k j : Fin 100) :
    View.ld x3 r0_5 (ix3 (0 : Fin 1) k j) = x3 (ix3 (1 : Fin 5) k j) :=
  congrArg x3 (funext fun a => Fin.ext (by
    match a with
    | ⟨0, _⟩ => rfl
    | ⟨1, _⟩ => show 0 + 1 * k.val = k.val; omega
    | ⟨2, _⟩ => show 0 + 1 * j.val = j.val; omega))
theorem ld_matrix_2 (x3 : Vec Ideal S5x100x100 .f32) (k j : Fin 100) :
    View.ld x3 r0_7 (ix3 (0 : Fin 1) k j) = x3 (ix3 (2 : Fin 5) k j) :=
  congrArg x3 (funext fun a => Fin.ext (by
    match a with
    | ⟨0, _⟩ => rfl
    | ⟨1, _⟩ => show 0 + 1 * k.val = k.val; omega
    | ⟨2, _⟩ => show 0 + 1 * j.val = j.val; omega))
theorem ld_matrix_3 (x3 : Vec Ideal S5x100x100 .f32) (k j : Fin 100) :
    View.ld x3 r0_9 (ix3 (0 : Fin 1) k j) = x3 (ix3 (3 : Fin 5) k j) :=
  congrArg x3 (funext fun a => Fin.ext (by
    match a with
    | ⟨0, _⟩ => rfl
    | ⟨1, _⟩ => show 0 + 1 * k.val = k.val; omega
    | ⟨2, _⟩ => show 0 + 1 * j.val = j.val; omega))
theorem ld_matrix_4 (x3 : Vec Ideal S5x100x100 .f32) (k j : Fin 100) :
    View.ld x3 r0_11 (ix3 (0 : Fin 1) k j) = x3 (ix3 (4 : Fin 5) k j) :=
  congrArg x3 (funext fun a => Fin.ext (by
    match a with
    | ⟨0, _⟩ => rfl
    | ⟨1, _⟩ => show 0 + 1 * k.val = k.val; omega
    | ⟨2, _⟩ => show 0 + 1 * j.val = j.val; omega))
theorem ld_bias_0 (x4 : Vec Ideal S5x100 .f32) (j : Fin 100) :
    View.ld x4 r0_4 (ix2 (0 : Fin 1) j) = x4 (ix2 (0 : Fin 5) j) :=
  congrArg x4 (funext fun a => Fin.ext (by
    match a with
    | ⟨0, _⟩ => rfl
    | ⟨1, _⟩ => show 0 + 1 * j.val = j.val; omega))
theorem ld_bias_1 (x4 : Vec Ideal S5x100 .f32) (j : Fin 100) :
    View.ld x4 r0_6 (ix2 (0 : Fin 1) j) = x4 (ix2 (1 : Fin 5) j) :=
  congrArg x4 (funext fun a => Fin.ext (by
    match a with
    | ⟨0, _⟩ => rfl
    | ⟨1, _⟩ => show 0 + 1 * j.val = j.val; omega))
theorem ld_bias_2 (x4 : Vec Ideal S5x100 .f32) (j : Fin 100) :
    View.ld x4 r0_8 (ix2 (0 : Fin 1) j) = x4 (ix2 (2 : Fin 5) j) :=
  congrArg x4 (funext fun a => Fin.ext (by
    match a with
    | ⟨0, _⟩ => rfl
    | ⟨1, _⟩ => show 0 + 1 * j.val = j.val; omega))
theorem ld_bias_3 (x4 : Vec Ideal S5x100 .f32) (j : Fin 100) :
    View.ld x4 r0_10 (ix2 (0 : Fin 1) j) = x4 (ix2 (3 : Fin 5) j) :=
  congrArg x4 (funext fun a => Fin.ext (by
    match a with
    | ⟨0, _⟩ => rfl
    | ⟨1, _⟩ => show 0 + 1 * j.val = j.val; omega))
theorem ld_bias_4 (x4 : Vec Ideal S5x100 .f32) (j : Fin 100) :
    View.ld x4 r0_12 (ix2 (0 : Fin 1) j) = x4 (ix2 (4 : Fin 5) j) :=
  congrArg x4 (funext fun a => Fin.ext (by
    match a with
    | ⟨0, _⟩ => rfl
    | ⟨1, _⟩ => show 0 + 1 * j.val = j.val; omega))

/-- A layer depends on its input row, its weights and its bias only through their values. -/
theorem layer_congr {K J : ℕ} {h h' : Fin K → EReal} {W W' : Fin K → Fin J → EReal} {b b' : Fin J → EReal}
    (eh : h = h') (eW : W = W') (eb : b = b') : layer h W b = layer h' W' b' := by
  subst eh eW eb; rfl

/-- Entry `(p, 0)` of what the body leaves in the output block is the network on row `p` of the input block, with the
    weights and biases read from the blocks of the other six windows. -/
theorem body_row (x0 : Vec Ideal S8192x64 .f32) (x1 : Vec Ideal S64x100 .f32) (x2 : Vec Ideal S1x100 .f32)
    (x3 : Vec Ideal S5x100x100 .f32) (x4 : Vec Ideal S5x100 .f32) (x5 : Vec Ideal S1x100 .f32) (x6 : Vec Ideal S1x1 .f32)
    (p : Fin 8192) :
    out0_7 x0 x1 x2 x3 x4 x5 x6 (ix2 p (0 : Fin 1))
      = mlpRow (fun k => x0 (ix2 p k)) (fun k j => x1 (ix2 k j)) (fun j => x2 (ix2 (0 : Fin 1) j))
          (fun l k j => x3 (ix3 l k j)) (fun l j => x4 (ix2 l j)) (fun k => x5 (ix2 (0 : Fin 1) k))
          (x6 (ix2 (0 : Fin 1) (0 : Fin 1))) := by
  unfold out0_7
  rw [View.canon_unit_zero zeros2]
  simp only [View.ld_unit_zero (S := S8192x64) zeros2, View.ld_unit_zero (S := S64x100) zeros2,
    View.ld_unit_zero (S := S1x100) zeros2, View.ld_unit_zero (S := S1x1) zeros2]
  refine (stored_row x0 x1 x2 (View.ld x3 r0_3) (View.ld x3 r0_5) (View.ld x3 r0_7) (View.ld x3 r0_9) (View.ld x3 r0_11)
    (View.ld x4 r0_4) (View.ld x4 r0_6) (View.ld x4 r0_8) (View.ld x4 r0_10) (View.ld x4 r0_12) x5 x6 p).trans ?_
  unfold mlpRow
  refine congrArg (fun h => head h (fun k => x5 (ix2 (0 : Fin 1) k)) (x6 (ix2 (0 : Fin 1) (0 : Fin 1)))) ?_
  exact layer_congr (layer_congr (layer_congr (layer_congr (layer_congr rfl
      (funext fun k => funext fun j => ld_matrix_0 x3 k j) (funext fun j => ld_bias_0 x4 j))
      (funext fun k => funext fun j => ld_matrix_1 x3 k j) (funext fun j => ld_bias_1 x4 j))
      (funext fun k => funext fun j => ld_matrix_2 x3 k j) (funext fun j => ld_bias_2 x4 j))
      (funext fun k => funext fun j => ld_matrix_3 x3 k j) (funext fun j => ld_bias_3 x4 j))
      (funext fun k => funext fun j => ld_matrix_4 x3 k j) (funext fun j => ld_bias_4 x4 j)

/-- The network depends on its seven arguments only through their values. -/
theorem mlpRow_congr {x x' : Fin 64 → EReal} {Win Win' : Fin 64 → Fin 100 → EReal} {bin bin' : Fin 100 → EReal}
    {Wh Wh' : Fin 5 → Fin 100 → Fin 100 → EReal} {bh bh' : Fin 5 → Fin 100 → EReal} {wout wout' : Fin 100 → EReal}
    {bout bout' : EReal} (h0 : x = x') (h1 : Win = Win') (h2 : bin = bin') (h3 : Wh = Wh') (h4 : bh = bh')
    (h5 : wout = wout') (h6 : bout = bout') :
    mlpRow x Win bin Wh bh wout bout = mlpRow x' Win' bin' Wh' bh' wout' bout' := by
  subst h0 h1 h2 h3 h4 h5 h6; rfl

variable (m : (ℓ : Loc nD τ sig) → Buf (Elt Ideal) ℓ) (ρ : Dev nD → PrngReg)

/-! ## What the region finds in the three arrays the host prepared -/

/-- The input bias as the kernel's third operand: the vector viewed as one row. -/
theorem V_bias_row (c : Dev nD) :
    (V m c main_v0 : S1x100.Idx → EReal) = shapeCast S1x100 (m ((c : Thread nD τ).loc main_arg2)) shapeCasts_S100_S1x100 := by
  show StableHlo.after hostOps0 (fun b => m (c, b)) (Proc.devRef .tc main_v0) = _
  after_results
  rfl

/-- The projection as the kernel's sixth operand: the one-column matrix transposed to one row. -/
theorem V_proj_row (c : Dev nD) :
    (V m c main_v1 : S1x100.Idx → EReal)
      = transpose S1x100 [1, 0] (m ((c : Thread nD τ).loc main_arg5)) transposes_S100x1_S1x100_1_0 := by
  show StableHlo.after hostOps0 (fun b => m (c, b)) (Proc.devRef .tc main_v1) = _
  after_results

/-- The projection bias as the kernel's seventh operand: the one-entry vector viewed as a 1×1 matrix. -/
theorem V_proj_bias (c : Dev nD) :
    (V m c main_v2 : S1x1.Idx → EReal) = shapeCast S1x1 (m ((c : Thread nD τ).loc main_arg6)) shapeCasts_S1_S1x1 := by
  show StableHlo.after hostOps0 (fun b => m (c, b)) (Proc.devRef .tc main_v2) = _
  after_results
  rfl

/-! ## The index maps over the grid -/

/-- The input's and the output's blocks move down their first axis with the grid point; every other window stays on
    its one block. Decided once over the 128 points. -/
theorem index_in : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem index_out : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)
theorem index_1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem index_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem index_3 : ∀ t : Fin cfg0.N, win0_3.index t (0 : Fin 3) = 0 ∧ win0_3.index t (1 : Fin 3) = 0 ∧ win0_3.index t (2 : Fin 3) = 0 :=
  (by decide +kernel : ∀ t : Fin grid0.N, win0_3.index t (0 : Fin 3) = 0 ∧ win0_3.index t (1 : Fin 3) = 0 ∧ win0_3.index t (2 : Fin 3) = 0)
theorem index_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem index_5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem index_6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

/-! ## Each window's block at a point, read from the arguments -/

/-- Row `p` of the input block at point `t` is row `8192·t + p` of the input. -/
theorem block_input (c : Dev nD) (t : Fin cfg0.N) (p : Fin 8192) (k : Fin 64) (r : Fin 1048576)
    (hr : r.val = t.val * 8192 + p.val) :
    (iblk m c 0 t : Vec Ideal S8192x64 .f32) (ix2 p k) = ((m ((c : Thread nD τ).loc main_arg0)) : S1048576x64.Idx → EReal) (ix2 r k) := by
  obtain ⟨e0, e1⟩ := index_in t
  show V m c main_arg0 (((cfg0.win 0).blk t).view.emb (ix2 p k)) = _
  rw [V_main_arg0]
  refine congrArg _ (funext fun a => Fin.ext ?_)
  match a with
  | ⟨0, _⟩ => show win0_0.index t (0 : Fin 2) * 8192 + 1 * p.val = r.val; rw [e0, hr]; omega
  | ⟨1, _⟩ => show win0_0.index t (1 : Fin 2) * 64 + 1 * k.val = k.val; rw [e1]; omega

/-- The input weights' block is the whole matrix. -/
theorem block_w_in (c : Dev nD) (t : Fin cfg0.N) (k : Fin 64) (j : Fin 100) :
    (iblk m c 1 t : Vec Ideal S64x100 .f32) (ix2 k j) = ((m ((c : Thread nD τ).loc main_arg1)) : S64x100.Idx → EReal) (ix2 k j) := by
  obtain ⟨e0, e1⟩ := index_1 t
  show V m c main_arg1 (((cfg0.win 1).blk t).view.emb (ix2 k j)) = _
  rw [V_main_arg1]
  refine congrArg _ (funext fun a => Fin.ext ?_)
  match a with
  | ⟨0, _⟩ => show win0_1.index t (0 : Fin 2) * 64 + 1 * k.val = k.val; rw [e0]; omega
  | ⟨1, _⟩ => show win0_1.index t (1 : Fin 2) * 100 + 1 * j.val = j.val; rw [e1]; omega

/-- The input bias's block is the bias vector as a row: its entry `(0, j)` is the vector's `j`. -/
theorem block_b_in (c : Dev nD) (t : Fin cfg0.N) (j : Fin 100) :
    (iblk m c 2 t : Vec Ideal S1x100 .f32) (ix2 (0 : Fin 1) j) = ((m ((c : Thread nD τ).loc main_arg2)) : S100.Idx → EReal) (ix1 j) := by
  obtain ⟨e0, e1⟩ := index_2 t
  show V m c main_v0 (((cfg0.win 2).blk t).view.emb (ix2 (0 : Fin 1) j)) = _
  have e : ((cfg0.win 2).blk t).view.emb (ix2 (0 : Fin 1) j) = ix2 (0 : Fin 1) j := funext fun a => Fin.ext (by
    match a with
    | ⟨0, _⟩ => show win0_2.index t (0 : Fin 2) * 1 + 1 * 0 = 0; rw [e0]
    | ⟨1, _⟩ => show win0_2.index t (1 : Fin 2) * 100 + 1 * j.val = j.val; rw [e1]; omega)
  rw [e, V_bias_row, shapeCast_a_1a_apply]

/-- The stacked hidden weights' block is the whole stack. -/
theorem block_w_hid (c : Dev nD) (t : Fin cfg0.N) (l : Fin 5) (k j : Fin 100) :
    (iblk m c 3 t : Vec Ideal S5x100x100 .f32) (ix3 l k j) = ((m ((c : Thread nD τ).loc main_arg3)) : S5x100x100.Idx → EReal) (ix3 l k j) := by
  obtain ⟨e0, e1, e2⟩ := index_3 t
  show V m c main_arg3 (((cfg0.win 3).blk t).view.emb (ix3 l k j)) = _
  rw [V_main_arg3]
  refine congrArg _ (funext fun a => Fin.ext ?_)
  match a with
  | ⟨0, _⟩ => show win0_3.index t (0 : Fin 3) * 5 + 1 * l.val = l.val; rw [e0]; omega
  | ⟨1, _⟩ => show win0_3.index t (1 : Fin 3) * 100 + 1 * k.val = k.val; rw [e1]; omega
  | ⟨2, _⟩ => show win0_3.index t (2 : Fin 3) * 100 + 1 * j.val = j.val; rw [e2]; omega

/-- The stacked hidden biases' block is the whole stack. -/
theorem block_b_hid (c : Dev nD) (t : Fin cfg0.N) (l : Fin 5) (j : Fin 100) :
    (iblk m c 4 t : Vec Ideal S5x100 .f32) (ix2 l j) = ((m ((c : Thread nD τ).loc main_arg4)) : S5x100.Idx → EReal) (ix2 l j) := by
  obtain ⟨e0, e1⟩ := index_4 t
  show V m c main_arg4 (((cfg0.win 4).blk t).view.emb (ix2 l j)) = _
  rw [V_main_arg4]
  refine congrArg _ (funext fun a => Fin.ext ?_)
  match a with
  | ⟨0, _⟩ => show win0_4.index t (0 : Fin 2) * 5 + 1 * l.val = l.val; rw [e0]; omega
  | ⟨1, _⟩ => show win0_4.index t (1 : Fin 2) * 100 + 1 * j.val = j.val; rw [e1]; omega

/-- The projection's block is the projection matrix's one column laid as a row: its entry `(0, k)` is the matrix's
    `(k, 0)`. -/
theorem block_w_out (c : Dev nD) (t : Fin cfg0.N) (k : Fin 100) :
    (iblk m c 5 t : Vec Ideal S1x100 .f32) (ix2 (0 : Fin 1) k)
      = ((m ((c : Thread nD τ).loc main_arg5)) : S100x1.Idx → EReal) (ix2 k (0 : Fin 1)) := by
  obtain ⟨e0, e1⟩ := index_5 t
  show V m c main_v1 (((cfg0.win 5).blk t).view.emb (ix2 (0 : Fin 1) k)) = _
  have e : ((cfg0.win 5).blk t).view.emb (ix2 (0 : Fin 1) k) = ix2 (0 : Fin 1) k := funext fun a => Fin.ext (by
    match a with
    | ⟨0, _⟩ => show win0_5.index t (0 : Fin 2) * 1 + 1 * 0 = 0; rw [e0]
    | ⟨1, _⟩ => show win0_5.index t (1 : Fin 2) * 100 + 1 * k.val = k.val; rw [e1]; omega)
  rw [e, V_proj_row, transpose_ix2_apply]

/-- The projection bias's block is its one entry. -/
theorem block_b_out (c : Dev nD) (t : Fin cfg0.N) :
    (iblk m c 6 t : Vec Ideal S1x1 .f32) (ix2 (0 : Fin 1) (0 : Fin 1)) = ((m ((c : Thread nD τ).loc main_arg6)) : S1.Idx → EReal) (ix1 (0 : Fin 1)) := by
  obtain ⟨e0, e1⟩ := index_6 t
  show V m c main_v2 (((cfg0.win 6).blk t).view.emb (ix2 (0 : Fin 1) (0 : Fin 1))) = _
  have e : ((cfg0.win 6).blk t).view.emb (ix2 (0 : Fin 1) (0 : Fin 1)) = ix2 (0 : Fin 1) (0 : Fin 1) := funext fun a => Fin.ext (by
    match a with
    | ⟨0, _⟩ => show win0_6.index t (0 : Fin 2) * 1 + 1 * 0 = 0; rw [e0]
    | ⟨1, _⟩ => show win0_6.index t (1 : Fin 2) * 1 + 1 * 0 = 0; rw [e1])
  rw [e, V_proj_bias, shapeCast_a_1a_apply]

/-! ## The one-column result -/

/-- What the kernel's result array ends holding: at `(r, 0)` the network at row `r` of the arguments. -/
def column (c : Dev nD) : S1048576x1.Idx → EReal := fun i =>
  mlpAt (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (i 0)

end Cert.KernelIdeal.BlockValue

end
-- ==== Proof.KernelValue.lean ====
/-
  From the kernel's blocks to its result array.

  The kernel runs its body at 128 grid points. At point `t` the body sees rows `8192·t … 8192·t + 8191` of the input
  and the whole of every other operand, and writes rows `8192·t … 8192·t + 8191` of a one-column result; after the
  kernel the host drops the result's unit axis.

  The body at row `p` of its block is the network of `Cert.Mlp` on row `p` of the input block, and the blocks are the
  arguments read where the windows sit (Proof/KernelBlocks.lean): so what point `t` writes back is block `t` of the one
  column `r ↦ mlpAt … r`. The 128 blocks tile the column (row `r` lies in block `r / 8192`), so the column is what the
  array holds after the run, and the host's reshape reads entry `r` of the result at `(r, 0)` of it.
-/
import proofs.«147325_j26860725469574_2_alg».proof.Proof.KernelBlocks

set_option maxRecDepth 16384

noncomputable section

namespace Cert.KernelIdeal.BlockValue

open Cert.KernelIdeal Cert.KernelIdeal.Gen Cert.KernelIdeal.RowValue Idealize.ShloMosaic Idealize.ShloMosaic.TcCoe
open Idealize.ShloMosaic.ValueIdx Idealize.SL.Sem Cert.Mlp
open Idealize.ShloMosaic.Pipeline (Dat Cfg Window)

variable (m : (ℓ : Loc nD τ sig) → Buf (Elt Ideal) ℓ) (ρ : Dev nD → PrngReg)

/-- Entry `(p, 0)` of what the body leaves at point `t` is the network at row `8192·t + p` of the arguments. -/
theorem body_at (c : Dev nD) (t : Fin cfg0.N) (p : Fin 8192) (r : Fin 1048576) (hr : r.val = t.val * 8192 + p.val) :
    out0_7 (iblk m c 0 t) (iblk m c 1 t) (iblk m c 2 t) (iblk m c 3 t) (iblk m c 4 t) (iblk m c 5 t) (iblk m c 6 t)
        (ix2 p (0 : Fin 1))
      = mlpAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) r :=
  (body_row (iblk m c 0 t) (iblk m c 1 t) (iblk m c 2 t) (iblk m c 3 t) (iblk m c 4 t) (iblk m c 5 t) (iblk m c 6 t) p).trans
    (mlpRow_congr (funext fun k => block_input m c t p k r hr) (funext fun k => funext fun j => block_w_in m c t k j)
      (funext fun j => block_b_in m c t j) (funext fun l => funext fun k => funext fun j => block_w_hid m c t l k j)
      (funext fun l => funext fun j => block_b_hid m c t l j) (funext fun k => block_w_out m c t k) (block_b_out m c t))

/-- The column at the array position of element `(p, 0)` of block `t` is the network at row `8192·t + p`. -/
theorem column_at (c : Dev nD) (t : Fin cfg0.N) (p : Fin 8192) (r : Fin 1048576) (hr : r.val = t.val * 8192 + p.val) :
    column m c (((cfg0.win 7).blk t).view.emb (ix2 p (0 : Fin 1))) = mlpAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) r := by
  obtain ⟨e0, e1⟩ := index_out t
  refine congrArg (mlpAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (Fin.ext ?_)
  show win0_7.index t (0 : Fin 2) * 8192 + 1 * p.val = r.val
  rw [e0, hr]; omega

/-- What point `t` writes back is block `t` of the column. -/
theorem flushed_eq (c : Dev nD) (t : Fin cfg0.N) :
    (dats m 0 c).flushed 7 t = ((cfg0.win 7).blk t).view.read (Elt Ideal) (column m c) := by
  show (cfg0.win 7).cut (grid0.coords t) ((dats m 0 c).after 7 t) = _
  rw [after0_7]
  funext y
  obtain ⟨p, q, rfl⟩ : ∃ (p : Fin 8192) (q : Fin 1), y = ix2 p q := ⟨y 0, y 1, eq_ix2 y⟩
  obtain rfl : q = 0 := Subsingleton.elim _ _
  have ht : t.val < 128 := Nat.lt_of_lt_of_eq t.isLt N_0
  obtain ⟨r, hr⟩ : ∃ r : Fin 1048576, r.val = t.val * 8192 + p.val :=
    ⟨⟨t.val * 8192 + p.val, by have := p.isLt; omega⟩, rfl⟩
  show out0_7 (iblk m c 0 t) (iblk m c 1 t) (iblk m c 2 t) (iblk m c 3 t) (iblk m c 4 t) (iblk m c 5 t) (iblk m c 6 t)
      (ix2 p (0 : Fin 1)) = column m c (((cfg0.win 7).blk t).view.emb (ix2 p (0 : Fin 1)))
  exact (body_at m c t p r hr).trans (column_at m c t p r hr).symm

/-- An index of the result array is in point `t`'s block iff each coordinate is in the block's range on its axis. -/
theorem mem_block (t : Fin cfg0.N) (i : S1048576x1.Idx) :
    i ∈ ((cfg0.win 7).blk t).view.set ↔ ∀ a : Fin 2, win0_7.index t a * S8192x1.size a ≤ (i a).val
      ∧ (i a).val < win0_7.index t a * S8192x1.size a + S8192x1.size a := by
  show i ∈ ((View.whole main_v3).slice (win0_7.rect t)).set ↔ _
  rw [View.set_slice_whole, Rect.mem_set_unit]
  exact Iff.rfl

/-- The 128 blocks cover the result array: row `r` is in the block of point `r / 8192`. -/
theorem cover (i : S1048576x1.Idx) :
    ∃ t : Fin cfg0.N, (cfg0.win 7).flush t = true ∧ i ∈ ((cfg0.win 7).blk t).view.set := by
  have hi0 : (i 0).val < 1048576 := (i 0).isLt
  have hi1 : (i 1).val < 1 := (i 1).isLt
  obtain ⟨t, ht⟩ : ∃ t : Fin cfg0.N, t.val = (i 0).val / 8192 :=
    ⟨⟨(i 0).val / 8192, Nat.lt_of_lt_of_eq (by omega : (i 0).val / 8192 < 128) N_0.symm⟩, rfl⟩
  obtain ⟨e0, e1⟩ := index_out t
  refine ⟨t, flush0_7 t, ?_⟩
  rw [mem_block]
  intro a
  match a with
  | ⟨0, _⟩ =>
    show win0_7.index t (0 : Fin 2) * 8192 ≤ (i 0).val ∧ (i 0).val < win0_7.index t (0 : Fin 2) * 8192 + 8192
    rw [e0, ht]; omega
  | ⟨1, _⟩ =>
    show win0_7.index t (1 : Fin 2) * 1 ≤ (i 1).val ∧ (i 1).val < win0_7.index t (1 : Fin 2) * 1 + 1
    rw [e1]; omega

/-- So the result array after the run is the column. -/
theorem final (c : Dev nD) : (dats m 0 c).arrAt 7 cfg0.N = column m c :=
  (dats m 0 c).arrAt_eq_of_cover 7 (column m c) (fun t _ => flushed_eq m c t) cover

/-! ## The host's reshape after the kernel, and the run -/

/-- The column with its unit axis dropped is the result vector: entry `r` is the column's `(r, 0)`. -/
theorem column_flat (c : Dev nD) :
    shapeCast S1048576 (column m c) shapeCasts_S1048576x1_S1048576 = mlp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  obtain ⟨r, rfl⟩ : ∃ r : Fin 1048576, i = ix1 r := ⟨i 0, eq_ix1 i⟩
  exact shapeCast_apply (column m c) shapeCasts_S1048576x1_S1048576 (ix1 r) (ix2 r (0 : Fin 1)) (by
    rw [Shape.rowMajor_val_two, Shape.rowMajor_val_one]
    show r.val * 1 + 0 = r.val
    omega)

/-- What the one host operation after the kernel leaves in the result buffer: the reshape of the kernel's result array,
    which the run left at the column. -/
theorem tail_eq (c : Dev nD) :
    (Pipeline.afterTail₀ cfgs (dats m) 0 (V0 m) [hostOps1] c main_v4 : S1048576.Idx → EReal) = mlp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine Eq.trans ?_ (column_flat m c)
  unfold Pipeline.afterTail₀
  show StableHlo.after hostOps1 _ (Proc.devRef .tc main_v4) = _
  after_results
  exact congrArg (fun A : S1048576x1.Idx → EReal => shapeCast S1048576 A shapeCasts_S1048576x1_S1048576)
    ((Pipeline.withArrays_arr spec0 launch0.win.arr_inj c _ _ 7).trans (final m c))

/-- The kernel's run, read: every weakly fair execution terminates with the result buffer at the network of the
    argument arrays, entry by entry, and the arguments as launched. -/
theorem run : θ_run defs (onTc (τ := τ) (main (F := Ideal))) ⟨m, fun _ => 0, ρ⟩ fun r => ∀ c : Dev nD,
      r.2.mem ((c.tc : Thread nD τ).loc main_v4) = mlp (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v4 (Pipeline.mem_restRefs_of main_v4 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.KernelIdeal.BlockValue

end
-- ==== Proof.RefRow.lean ====
/-
  The reference program, read at an index, is the network of `Cert.Mlp`.

  The reference's @main is a chain of host operations on whole arrays: a matrix product of the rows with a weight matrix,
  the bias broadcast over the rows and added, the maximum with a broadcast zero, six times over, then the product with the
  one-column projection, its bias, a reshape to a vector, and the absolute value. Read at row `r` each of these depends
  only on row `r` of its operand, so every stage at `(r, ·)` is one `layer` of the previous stage at `(r, ·)`: the
  matrix product at `(r, j)` is the sum over `k` of the operand at `(r, k)` times the weights at `(k, j)`, the weights of
  hidden layer `l` being entries `(l, k, j)` of the stack and its bias entries `(l, j)`.
-/
import proofs.«147325_j26860725469574_2_alg».proof.Proof.Gen.ReferenceIdeal.Read
import proofs.«147325_j26860725469574_2_alg».proof.Proof.MlpSpec

noncomputable section

namespace Cert.ReferenceIdeal.RefValue

open Cert.ReferenceIdeal Cert.ReferenceIdeal.Gen Cert.ReferenceIdeal.Read Idealize.ShloMosaic Idealize.ShloMosaic.ValueIdx Cert.Mlp

variable (x0 : (⟨S1048576x64, .f32⟩ : BufTy).Contents (Elt Ideal)) (x1 : (⟨S64x100, .f32⟩ : BufTy).Contents (Elt Ideal))
  (x2 : (⟨S100, .f32⟩ : BufTy).Contents (Elt Ideal)) (x3 : (⟨S5x100x100, .f32⟩ : BufTy).Contents (Elt Ideal))
  (x4 : (⟨S5x100, .f32⟩ : BufTy).Contents (Elt Ideal)) (x5 : (⟨S100x1, .f32⟩ : BufTy).Contents (Elt Ideal))
  (x6 : (⟨S1, .f32⟩ : BufTy).Contents (Elt Ideal))

/-- The input layer at row `r`: the product of the rows with the input weights at `(r, j)` sums row `r` against column
    `j`; the bias, a vector broadcast over the rows, is read at `j`; the rectifier is the maximum with zero. -/
theorem input_layer (r : Fin 1048576) :
    (fun j : Fin 100 => val_main_v4 (F := Ideal) x0 x1 x2 (ix2 r j))
      = layer (fun k => x0 (ix2 r k)) (fun k j => x1 (ix2 k j)) (fun j => x2 (ix1 j)) := by
  funext j
  have el : ∀ k : Fin 64, lidx_main_v0 (ix2 r j) k = ix2 r k := fun k => funext fun a => Fin.ext (by
    match a with
    | ⟨0, _⟩ => rfl
    | ⟨1, _⟩ => rfl)
  have er : ∀ k : Fin 64, ridx_main_v0 (ix2 r j) k = ix2 k j := fun k => funext fun a => Fin.ext (by
    match a with
    | ⟨0, _⟩ => rfl
    | ⟨1, _⟩ => rfl)
  have eb : idx_main_v1 (idx_main_v2 (ix2 r j)) = ix1 j := funext fun a => Fin.ext (by
    match a with
    | ⟨0, _⟩ => rfl)
  rw [val_main_v4_apply, val_main_v3_apply, val_main_v0_apply, val_main_v2_apply, val_main_v1_apply,
    val_main_call0_v0_apply, val_main_call0_cst_apply]
  simp only [el, er, eb, layer, Ideal.maximumf_def, Ideal.addf_def, Ideal.ofBits_def, Ideal.ofBits_zero_f32]

/-- The first hidden layer at row `r`: the reference contracts the previous layer's row with matrix 0 of the
    stacked weights (a slice of the stack, its unit axis dropped), adds row 0 of the stacked biases (sliced, flattened
    and broadcast back over the rows), and takes the maximum with zero. -/
theorem hidden_layer_0 (r : Fin 1048576) :
    (fun j : Fin 100 => val_main_v13 (F := Ideal) x0 x1 x2 x3 x4 (ix2 r j))
      = layer (fun k => val_main_v4 (F := Ideal) x0 x1 x2 (ix2 r k)) (fun k j => x3 (ix3 (0 : Fin 5) k j))
          (fun j => x4 (ix2 (0 : Fin 5) j)) := by
  funext j
  have el : ∀ k : Fin 100, lidx_main_v7 (ix2 r j) k = ix2 r k := fun k => funext fun a => Fin.ext (by
    match a with
    | ⟨0, _⟩ => rfl
    | ⟨1, _⟩ => rfl)
  have ew : ∀ k : Fin 100, idx_main_v5 (idx_main_v6 (ridx_main_v7 (ix2 r j) k)) = ix3 (0 : Fin 5) k j := fun k =>
    funext fun a => Fin.ext (by
      have hk := k.isLt
      have hj := j.isLt
      match a with
      | ⟨0, _⟩ => rfl
      | ⟨1, _⟩ => show (k.val * 100 + j.val) / 100 % 100 = k.val; omega
      | ⟨2, _⟩ => show (k.val * 100 + j.val) % 100 = j.val; omega)
  have eb : idx_main_v8 (idx_main_v9 (idx_main_v10 (idx_main_v11 (ix2 r j)))) = ix2 (0 : Fin 5) j :=
    funext fun a => Fin.ext (by
      have hj := j.isLt
      match a with
      | ⟨0, _⟩ => rfl
      | ⟨1, _⟩ => show j.val % 100 = j.val; omega)
  rw [val_main_v13_apply, val_main_v12_apply, val_main_v7_apply, val_main_v11_apply, val_main_v10_apply,
    val_main_v9_apply, val_main_v8_apply, val_main_call1_v0_apply, val_main_call1_cst_apply]
  simp only [val_main_v6_apply, val_main_v5_apply, el, ew, eb, layer, Ideal.maximumf_def, Ideal.addf_def, Ideal.ofBits_def,
    Ideal.ofBits_zero_f32]

/-- The second hidden layer at row `r`: the reference contracts the previous layer's row with matrix 1 of the
    stacked weights (a slice of the stack, its unit axis dropped), adds row 1 of the stacked biases (sliced, flattened
    and broadcast back over the rows), and takes the maximum with zero. -/
theorem hidden_layer_1 (r : Fin 1048576) :
    (fun j : Fin 100 => val_main_v22 (F := Ideal) x0 x1 x2 x3 x4 (ix2 r j))
      = layer (fun k => val_main_v13 (F := Ideal) x0 x1 x2 x3 x4 (ix2 r k)) (fun k j => x3 (ix3 (1 : Fin 5) k j))
          (fun j => x4 (ix2 (1 : Fin 5) j)) := by
  funext j
  have el : ∀ k : Fin 100, lidx_main_v16 (ix2 r j) k = ix2 r k := fun k => funext fun a => Fin.ext (by
    match a with
    | ⟨0, _⟩ => rfl
    | ⟨1, _⟩ => rfl)
  have ew : ∀ k : Fin 100, idx_main_v14 (idx_main_v15 (ridx_main_v16 (ix2 r j) k)) = ix3 (1 : Fin 5) k j := fun k =>
    funext fun a => Fin.ext (by
      have hk := k.isLt
      have hj := j.isLt
      match a with
      | ⟨0, _⟩ => rfl
      | ⟨1, _⟩ => show (k.val * 100 + j.val) / 100 % 100 = k.val; omega
      | ⟨2, _⟩ => show (k.val * 100 + j.val) % 100 = j.val; omega)
  have eb : idx_main_v17 (idx_main_v18 (idx_main_v19 (idx_main_v20 (ix2 r j)))) = ix2 (1 : Fin 5) j :=
    funext fun a => Fin.ext (by
      have hj := j.isLt
      match a with
      | ⟨0, _⟩ => rfl
      | ⟨1, _⟩ => show j.val % 100 = j.val; omega)
  rw [val_main_v22_apply, val_main_v21_apply, val_main_v16_apply, val_main_v20_apply, val_main_v19_apply,
    val_main_v18_apply, val_main_v17_apply, val_main_call2_v0_apply, val_main_call2_cst_apply]
  simp only [val_main_v15_apply, val_main_v14_apply, el, ew, eb, layer, Ideal.maximumf_def, Ideal.addf_def, Ideal.ofBits_def,
    Ideal.ofBits_zero_f32]

/-- The third hidden layer at row `r`: the reference contracts the previous layer's row with matrix 2 of the
    stacked weights (a slice of the stack, its unit axis dropped), adds row 2 of the stacked biases (sliced, flattened
    and broadcast back over the rows), and takes the maximum with zero. -/
theorem hidden_layer_2 (r : Fin 1048576) :
    (fun j : Fin 100 => val_main_v31 (F := Ideal) x0 x1 x2 x3 x4 (ix2 r j))
      = layer (fun k => val_main_v22 (F := Ideal) x0 x1 x2 x3 x4 (ix2 r k)) (fun k j => x3 (ix3 (2 : Fin 5) k j))
          (fun j => x4 (ix2 (2 : Fin 5) j)) := by
  funext j
  have el : ∀ k : Fin 100, lidx_main_v25 (ix2 r j) k = ix2 r k := fun k => funext fun a => Fin.ext (by
    match a with
    | ⟨0, _⟩ => rfl
    | ⟨1, _⟩ => rfl)
  have ew : ∀ k : Fin 100, idx_main_v23 (idx_main_v24 (ridx_main_v25 (ix2 r j) k)) = ix3 (2 : Fin 5) k j := fun k =>
    funext fun a => Fin.ext (by
      have hk := k.isLt
      have hj := j.isLt
      match a with
      | ⟨0, _⟩ => rfl
      | ⟨1, _⟩ => show (k.val * 100 + j.val) / 100 % 100 = k.val; omega
      | ⟨2, _⟩ => show (k.val * 100 + j.val) % 100 = j.val; omega)
  have eb : idx_main_v26 (idx_main_v27 (idx_main_v28 (idx_main_v29 (ix2 r j)))) = ix2 (2 : Fin 5) j :=
    funext fun a => Fin.ext (by
      have hj := j.isLt
      match a with
      | ⟨0, _⟩ => rfl
      | ⟨1, _⟩ => show j.val % 100 = j.val; omega)
  rw [val_main_v31_apply, val_main_v30_apply, val_main_v25_apply, val_main_v29_apply, val_main_v28_apply,
    val_main_v27_apply, val_main_v26_apply, val_main_call3_v0_apply, val_main_call3_cst_apply]
  simp only [val_main_v24_apply, val_main_v23_apply, el, ew, eb, layer, Ideal.maximumf_def, Ideal.addf_def, Ideal.ofBits_def,
    Ideal.ofBits_zero_f32]

/-- The fourth hidden layer at row `r`: the reference contracts the previous layer's row with matrix 3 of the
    stacked weights (a slice of the stack, its unit axis dropped), adds row 3 of the stacked biases (sliced, flattened
    and broadcast back over the rows), and takes the maximum with zero. -/
theorem hidden_layer_3 (r : Fin 1048576) :
    (fun j : Fin 100 => val_main_v40 (F := Ideal) x0 x1 x2 x3 x4 (ix2 r j))
      = layer (fun k => val_main_v31 (F := Ideal) x0 x1 x2 x3 x4 (ix2 r k)) (fun k j => x3 (ix3 (3 : Fin 5) k j))
          (fun j => x4 (ix2 (3 : Fin 5) j)) := by
  funext j
  have el : ∀ k : Fin 100, lidx_main_v34 (ix2 r j) k = ix2 r k := fun k => funext fun a => Fin.ext (by
    match a with
    | ⟨0, _⟩ => rfl
    | ⟨1, _⟩ => rfl)
  have ew : ∀ k : Fin 100, idx_main_v32 (idx_main_v33 (ridx_main_v34 (ix2 r j) k)) = ix3 (3 : Fin 5) k j := fun k =>
    funext fun a => Fin.ext (by
      have hk := k.isLt
      have hj := j.isLt
      match a with
      | ⟨0, _⟩ => rfl
      | ⟨1, _⟩ => show (k.val * 100 + j.val) / 100 % 100 = k.val; omega
      | ⟨2, _⟩ => show (k.val * 100 + j.val) % 100 = j.val; omega)
  have eb : idx_main_v35 (idx_main_v36 (idx_main_v37 (idx_main_v38 (ix2 r j)))) = ix2 (3 : Fin 5) j :=
    funext fun a => Fin.ext (by
      have hj := j.isLt
      match a with
      | ⟨0, _⟩ => rfl
      | ⟨1, _⟩ => show j.val % 100 = j.val; omega)
  rw [val_main_v40_apply, val_main_v39_apply, val_main_v34_apply, val_main_v38_apply, val_main_v37_apply,
    val_main_v36_apply, val_main_v35_apply, val_main_call4_v0_apply, val_main_call4_cst_apply]
  simp only [val_main_v33_apply, val_main_v32_apply, el, ew, eb, layer, Ideal.maximumf_def, Ideal.addf_def, Ideal.ofBits_def,
    Ideal.ofBits_zero_f32]

/-- The fifth hidden layer at row `r`: the reference contracts the previous layer's row with matrix 4 of the
    stacked weights (a slice of the stack, its unit axis dropped), adds row 4 of the stacked biases (sliced, flattened
    and broadcast back over the rows), and takes the maximum with zero. -/
theorem hidden_layer_4 (r : Fin 1048576) :
    (fun j : Fin 100 => val_main_v49 (F := Ideal) x0 x1 x2 x3 x4 (ix2 r j))
      = layer (fun k => val_main_v40 (F := Ideal) x0 x1 x2 x3 x4 (ix2 r k)) (fun k j => x3 (ix3 (4 : Fin 5) k j))
          (fun j => x4 (ix2 (4 : Fin 5) j)) := by
  funext j
  have el : ∀ k : Fin 100, lidx_main_v43 (ix2 r j) k = ix2 r k := fun k => funext fun a => Fin.ext (by
    match a with
    | ⟨0, _⟩ => rfl
    | ⟨1, _⟩ => rfl)
  have ew : ∀ k : Fin 100, idx_main_v41 (idx_main_v42 (ridx_main_v43 (ix2 r j) k)) = ix3 (4 : Fin 5) k j := fun k =>
    funext fun a => Fin.ext (by
      have hk := k.isLt
      have hj := j.isLt
      match a with
      | ⟨0, _⟩ => rfl
      | ⟨1, _⟩ => show (k.val * 100 + j.val) / 100 % 100 = k.val; omega
      | ⟨2, _⟩ => show (k.val * 100 + j.val) % 100 = j.val; omega)
  have eb : idx_main_v44 (idx_main_v45 (idx_main_v46 (idx_main_v47 (ix2 r j)))) = ix2 (4 : Fin 5) j :=
    funext fun a => Fin.ext (by
      have hj := j.isLt
      match a with
      | ⟨0, _⟩ => rfl
      | ⟨1, _⟩ => show j.val % 100 = j.val; omega)
  rw [val_main_v49_apply, val_main_v48_apply, val_main_v43_apply, val_main_v47_apply, val_main_v46_apply,
    val_main_v45_apply, val_main_v44_apply, val_main_call5_v0_apply, val_main_call5_cst_apply]
  simp only [val_main_v42_apply, val_main_v41_apply, el, ew, eb, layer, Ideal.maximumf_def, Ideal.addf_def, Ideal.ofBits_def,
    Ideal.ofBits_zero_f32]

/-- The projection at row `r`: the product with the one-column matrix sums the last layer's row against that column,
    the one bias entry is added, the unit axis is dropped, and the host's absolute value is the larger of the number
    and its negation. -/
theorem projection (r : Fin 1048576) :
    val_main_v55 (F := Ideal) x0 x1 x2 x3 x4 x5 x6 (ix1 r)
      = head (fun k => val_main_v49 (F := Ideal) x0 x1 x2 x3 x4 (ix2 r k)) (fun k => x5 (ix2 k (0 : Fin 1)))
          (x6 (ix1 (0 : Fin 1))) := by
  have el : ∀ k : Fin 100, lidx_main_v50 (idx_main_v54 (ix1 r)) k = ix2 r k := fun k => funext fun a => Fin.ext (by
    match a with
    | ⟨0, _⟩ => show r.val / 1 = r.val; omega
    | ⟨1, _⟩ => rfl)
  have er : ∀ k : Fin 100, ridx_main_v50 (idx_main_v54 (ix1 r)) k = ix2 k (0 : Fin 1) := fun k => funext fun a => Fin.ext (by
    match a with
    | ⟨0, _⟩ => rfl
    | ⟨1, _⟩ => rfl)
  have eb : idx_main_v51 (idx_main_v52 (idx_main_v54 (ix1 r))) = ix1 (0 : Fin 1) := funext fun a => Fin.ext (by
    match a with
    | ⟨0, _⟩ => rfl)
  rw [val_main_v55_apply, val_main_v54_apply, val_main_v53_apply, val_main_v50_apply, val_main_v52_apply,
    val_main_v51_apply]
  simp only [el, er, eb, head, Ideal.hostAbsf_def, Ideal.absf_def, Ideal.addf_def]

/-- The reference's result array is the network of the argument arrays, entry by entry: the projection of the fifth hidden
    layer of … of the input layer of row `r`. -/
theorem reference_eq : val_main_v55 (F := Ideal) x0 x1 x2 x3 x4 x5 x6 = mlp x0 x1 x2 x3 x4 x5 x6 := by
  funext i
  obtain ⟨r, rfl⟩ : ∃ r : Fin 1048576, i = ix1 r := ⟨i 0, eq_ix1 i⟩
  rw [projection, hidden_layer_4, hidden_layer_3, hidden_layer_2, hidden_layer_1, hidden_layer_0, input_layer]
  rfl

end Cert.ReferenceIdeal.RefValue

end
-- ==== Proof.lean ====
/-
  A seven-layer perceptron, computed block by block in one kernel, against the same network written with whole-array
  operations: equal results on the extended reals.

  Both programs map each of the 2²⁰ input rows `x` (64 numbers) through
      h⁰ = max (x · W_in + b_in) 0,   hˡ⁺¹ = max (hˡ · W_hid[l] + b_hid[l]) 0  (l = 0 … 4),   out = |h⁵ · W_out + b_out|.
  The kernel takes 8192 rows at a time, rounds the operands of each product to a narrower format (the identity on the
  extended reals), accumulates each product from zero, and replaces the last product — one output column — by a
  multiplication with the projection laid out as a row and a sum along each row; the host lays the biases and the
  projection out as rows before the kernel and drops the result's unit axis after it. The reference multiplies whole
  arrays, broadcasts each bias over the rows, and takes the rectifier as a maximum with a broadcast zero.

  Read at one row, each side is the same expression, `Cert.Mlp.mlpRow` (Proof/MlpSpec.lean): the same finite sums of
  the same products, the same maxima, the same absolute value. No step uses a law that could fail at an infinity, so the
  hypothesis that the inputs are finite is not used. Proof/RefRow.lean reads the reference's run at an index;
  Proof/KernelRow.lean reads the kernel body's value at a row of its block; Proof/KernelBlocks.lean reads each block from
  the argument arrays; Proof/KernelValue.lean tiles the result with the blocks and reads the kernel's run. The ideal
  pass rewrote nothing in the kernel, so there is nothing for `preserves` to state.
-/
import proofs.«147325_j26860725469574_2_alg».proof.Defs
import proofs.«147325_j26860725469574_2_alg».proof.Proof.Gen.Kernel
import proofs.«147325_j26860725469574_2_alg».proof.Proof.Gen.Kernel.Skeleton
import proofs.«147325_j26860725469574_2_alg».proof.Proof.Gen.Kernel.Launch
import proofs.«147325_j26860725469574_2_alg».proof.Proof.Gen.Kernel.Points
import proofs.«147325_j26860725469574_2_alg».proof.Proof.Gen.Kernel.Frame
import proofs.«147325_j26860725469574_2_alg».proof.Proof.Gen.KernelIdeal
import proofs.«147325_j26860725469574_2_alg».proof.Proof.Gen.KernelIdeal.Skeleton
import proofs.«147325_j26860725469574_2_alg».proof.Proof.Gen.KernelIdeal.Launch
import proofs.«147325_j26860725469574_2_alg».proof.Proof.Gen.KernelIdeal.Points
import proofs.«147325_j26860725469574_2_alg».proof.Proof.Gen.KernelIdeal.Frame
import proofs.«147325_j26860725469574_2_alg».proof.Proof.Gen.ReferenceIdeal
import proofs.«147325_j26860725469574_2_alg».proof.Proof.Gen.Pre_finite_inputs
import proofs.«147325_j26860725469574_2_alg».proof.Proof.Gen.ReferenceIdeal.Run
import proofs.«147325_j26860725469574_2_alg».proof.Proof.Gen.ReferenceIdeal.Read
import proofs.«147325_j26860725469574_2_alg».proof.Proof.KernelValue
import proofs.«147325_j26860725469574_2_alg».proof.Proof.RefRow
import Idealize.ShloMosaic.Adequacy
import Idealize.ShloMosaic.Init

noncomputable section

namespace Cert.Proof

open Idealize.ShloMosaic Idealize.SL.Sem

/-- The kernel as printed runs, faults nowhere and leaves its arguments as launched. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a chain of host operations; its run, with the result forgotten, is its frame. -/
theorem frame_reference : Cert.frame_ReferenceIdeal := fun m ρ _ =>
  (θ_run Cert.ReferenceIdeal.defs _ _).mono (fun _ h c => (h c).2) (Cert.ReferenceIdeal.Value.run (F := Ideal) m ρ)

/-- The kernel's result vector ends at the network of its arguments (Proof/KernelValue.lean) and the reference's at the
    same network of its own arguments (Proof/RefRow.lean); the two sets of arguments agree. -/
theorem algebraic : Cert.algebraic_KernelIdeal_ReferenceIdeal := by
  intro m ρ m' ρ' _ hagree
  refine ⟨_, Cert.KernelIdeal.BlockValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v55_eq, Cert.ReferenceIdeal.RefValue.reference_eq, h0, h1, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
